-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 112
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S100000, .f32⟩
  | .hbm, ⟨17, _⟩ => ⟨S_, .i32⟩
  | .hbm, ⟨18, _⟩ => ⟨S1700000, .i32⟩
  | .hbm, ⟨19, _⟩ => ⟨S1700000, .i1⟩
  | .hbm, ⟨20, _⟩ => ⟨S_, .i32⟩
  | .hbm, ⟨21, _⟩ => ⟨S1700000, .i32⟩
  | .hbm, ⟨22, _⟩ => ⟨S1700000, .i32⟩
  | .hbm, ⟨23, _⟩ => ⟨S1700000, .i32⟩
  | .hbm, ⟨24, _⟩ => ⟨S1700000x1, .i32⟩
  | .hbm, ⟨25, _⟩ => ⟨S_, .f32⟩
  | .hbm, ⟨26, _⟩ => ⟨S1700000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S1700000, .f32⟩
  | .hbm, ⟨55, _⟩ => ⟨S100000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S1700000x1, .f32⟩
  | .hbm, ⟨66, _⟩ => ⟨S1700000x128, .f32⟩
  | .hbm, ⟨67, _⟩ => ⟨S1700000x128, .f32⟩
  | .hbm, ⟨68, _⟩ => ⟨S_, .f32⟩
  | .hbm, ⟨69, _⟩ => ⟨S100000x128, .f32⟩
  | .hbm, ⟨70, _⟩ => ⟨S1700000x1, .i32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x128, .f32⟩
  | .hbm, ⟨84, _⟩ => ⟨S1700000x1, .f32⟩
  | .hbm, ⟨85, _⟩ => ⟨S1700000x128, .f32⟩
  | .hbm, ⟨86, _⟩ => ⟨S1700000x128, .f32⟩
  | .hbm, ⟨87, _⟩ => ⟨S_, .f32⟩
  | .hbm, ⟨88, _⟩ => ⟨S100000x128, .f32⟩
  | .hbm, ⟨89, _⟩ => ⟨S1700000x1, .i32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x40, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000x40, .f32⟩
  | .hbm, ⟨103, _⟩ => ⟨S1700000x1, .f32⟩
  | .hbm, ⟨104, _⟩ => ⟨S1700000x40, .f32⟩
  | .hbm, ⟨105, _⟩ => ⟨S1700000x40, .f32⟩
  | .hbm, ⟨106, _⟩ => ⟨S_, .f32⟩
  | .hbm, ⟨107, _⟩ => ⟨S100000x40, .f32⟩
  | .hbm, ⟨108, _⟩ => ⟨S1700000x1, .i32⟩
  | .hbm, ⟨109, _⟩ => ⟨S100000x40, .f32⟩
  | .hbm, ⟨110, _⟩ => ⟨S1x40, .f32⟩
  | .hbm, ⟨111, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x40, .f32⟩
  | .local _ .vmem, ⟨23, _⟩ => ⟨S5000x40, .f32⟩
  | .local _ .vmem, ⟨24, _⟩ => ⟨S5000x40, .f32⟩
  | .local _ .vmem, ⟨25, _⟩ => ⟨S5000x40, .f32⟩
  | .local _ .vmem, ⟨26, _⟩ => ⟨S5000x40, .f32⟩
  | .local _ .vmem, ⟨27, _⟩ => ⟨S1x40, .f32⟩
  | .local _ .vmem, ⟨28, _⟩ => ⟨S5000x40, .f32⟩
  | .local _ .vmem, ⟨29, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S100000x40.size a
  hwx4_2 : ∀ i : grid4.Coords, EltTy.bits .f32 = 32 ∨ (Rect.block (s := S100000x40) S5000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S100000x40.size a
  hwx5_0 : ∀ i : grid5.Coords, EltTy.bits .f32 = 32 ∨ (Rect.block (s := S100000x40) S5000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x40.size a ≤ S100000x40.size a
  hwx5_2 : ∀ i : grid5.Coords, EltTy.bits .f32 = 32 ∨ (Rect.block (s := S100000x40) S5000x40.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v66) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v80) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v82) S5000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S100000, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S_, .f32⟩
  | 26 => ⟨S1700000, .f32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x1, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x128, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x128, .f32⟩
  | 88 => ⟨S1700000x1, .f32⟩
  | 89 => ⟨S1700000x128, .f32⟩
  | 90 => ⟨S1700000x128, .f32⟩
  | 91 => ⟨S_, .f32⟩
  | 92 => ⟨S100000x128, .f32⟩
  | 93 => ⟨S1700000x1, .i32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x40, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x40, .f32⟩
  | 111 => ⟨S1700000x1, .f32⟩
  | 112 => ⟨S1700000x40, .f32⟩
  | 113 => ⟨S1700000x40, .f32⟩
  | 114 => ⟨S_, .f32⟩
  | 115 => ⟨S100000x40, .f32⟩
  | 116 => ⟨S1700000x1, .i32⟩
  | 117 => ⟨S100000x40, .f32⟩
  | 118 => ⟨S1x40, .f32⟩
  | 119 => ⟨S100000x40, .f32⟩
  | 120 => ⟨S100000x40, .f32⟩
  | 121 => ⟨S_, .f32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x40, .f32⟩
  | _ => ⟨S100000x128, .f32⟩

abbrev hbmTy0_1 (i : Nat) : BufTy := match i % 128 with
  | 0 => ⟨S100000x40, .f32⟩
  | 1 => ⟨S100000x40, .f32⟩
  | 2 => ⟨S_, .f32⟩
  | 3 => ⟨S100000, .f32⟩
  | 4 => ⟨S100000x1, .f32⟩
  | 5 => ⟨S100000x1, .f32⟩
  | 6 => ⟨S100000x40, .f32⟩
  | 7 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call2_cst : Ref sig .tc := ⟨.hbm, 98, rfl⟩
abbrev main_call2_v0 : Ref sig .tc := ⟨.hbm, 99, rfl⟩
abbrev main_v70 : Ref sig .tc := ⟨.hbm, 100, rfl⟩
abbrev main_v71 : Ref sig .tc := ⟨.hbm, 101, rfl⟩
abbrev main_c_14 : Ref sig .tc := ⟨.hbm, 102, rfl⟩
abbrev main_v72 : Ref sig .tc := ⟨.hbm, 103, rfl⟩
abbrev main_v73 : Ref sig .tc := ⟨.hbm, 104, rfl⟩
abbrev main_c_15 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_16 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_call3_cst : Ref sig .tc := ⟨.hbm, 121, rfl⟩
abbrev main_call3_v0 : Ref sig .tc := ⟨.hbm, 122, rfl⟩
abbrev main_call3_cst_0 : Ref sig .tc := ⟨.hbm, 123, rfl⟩
abbrev main_call3_v1 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_v6 : Ref sig .tc := ⟨.hbm, 129, rfl⟩
abbrev main_call3_cst_1 : Ref sig .tc := ⟨.hbm, 130, rfl⟩
abbrev main_call3_v7 : Ref sig .tc := ⟨.hbm, 131, rfl⟩
abbrev main_call3_v8 : Ref sig .tc := ⟨.hbm, 132, rfl⟩
abbrev main_call3_v9 : Ref sig .tc := ⟨.hbm, 133, rfl⟩
abbrev main_call3_v10 : Ref sig .tc := ⟨.hbm, 134, rfl⟩
abbrev main_v88 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel's run with its result array named.

  The program is twelve segments: stretches of whole-array operations and six tiled regions. Along them the contents of
  every buffer are a fold from the launch memory: a stretch applies its operations, a region replaces its arrays by what
  its write-backs leave. Every weakly fair execution ends with each buffer at the last fold's contents; read at the
  argument arrays that is the launch memory, and read at the result array it is the fold's value there, which the
  modules after this one compute.
-/
import proofs.«143151_j62251255988834_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result array at the last boundary's contents and the
    argument arrays as launched. -/
theorem run_named : θ_run defs (onTc (τ := τ) (main (F := F))) ⟨m, fun _ => 0, ρ⟩ (fun r => ∀ c : Dev nD,
      r.2.mem ((c.tc : Thread nD τ).loc main_v82) = W12 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v82 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.ValueRun

end
-- ==== Proof.GcnSpec.lean ====
/-
  A three-layer graph convolution, as one function of the node features, the edge list and the weights.

  The edge list e (two rows of 1600000 node numbers) gives each edge's source (row 0) and target (row 1); every node is
  also joined to itself, so the lists `src e` and `dst e` have 1700000 entries. A negative node number counts from the
  end (`wrap`). `deg e` counts, for each node, the list entries that name it as a target; `dinv e` is deg^(-1/2) where the
  degree is positive and 0 elsewhere; `nrm e` is, per list entry, dinv at its source times dinv at its target.

  One propagation `agg e h` takes the node rows h, reads the row of each entry's source, scales it by the entry's norm,
  and adds it into the row of the entry's target, starting from zero rows. A layer is a matrix product with the weights,
  a propagation, the bias row added to every node row, and then either the maximum with zero (the first two layers) or,
  in the last layer, the logarithm of the softmax along each node row: z - max z - log (sum (exp (z - max z))).

  Everything here is the whole-array spelling: these definitions use the array operations themselves, in the order and
  association in which they are applied, and no identity of the extended reals.
-/
import proofs.«143151_j62251255988834_1_alg».proof.Proof.Gen.ReferenceIdeal
import Idealize.ShloMosaic.PureOps.Ideal

noncomputable section

namespace Cert.Gcn

open Cert.ReferenceIdeal Cert.ReferenceIdeal.Gen Idealize.ShloMosaic Idealize.ShloMosaic.TcCoe

/-- An edge list: two rows of node numbers. -/
abbrev Edges := (⟨S2x1600000, .i32⟩ : BufTy).Contents (Elt Ideal)
/-- One node number per list entry (the edges, then one self loop per node). -/
abbrev Entries := (⟨S1700000, .i32⟩ : BufTy).Contents (Elt Ideal)
/-- The same as a column of one-coordinate indices. -/
abbrev EntryCol := (⟨S1700000x1, .i32⟩ : BufTy).Contents (Elt Ideal)
abbrev Nodes128 := FVec Ideal S100000x128 .f32
abbrev Nodes40 := FVec Ideal S100000x40 .f32

/-- A list of 1600000 edge ends followed by the 100000 nodes themselves. -/
def withLoops (a : (⟨S1600000, .i32⟩ : BufTy).Contents (Elt Ideal)) (b : (⟨S100000, .i32⟩ : BufTy).Contents (Elt Ideal)) : Entries :=
  concatenate S1700000 0 [⟨S1600000, a⟩, ⟨S100000, b⟩] concatenates_S1600000_S100000_S1700000_d0

/-- Row 0 of the edge list, then every node: the source of each list entry. -/
def src (e : Edges) : Entries :=
  withLoops (shapeCast S1600000 (extractStridedSlice S1x1600000 ![0, 0] e slices_S2x1600000_S1x1600000_0_0) shapeCasts_S1x1600000_S1600000)
    (iotaInDim S100000 32 0)

/-- Row 1 of the edge list, then every node: the target of each list entry. -/
def dst (e : Edges) : Entries :=
  withLoops (shapeCast S1600000 (extractStridedSlice S1x1600000 ![1, 0] e slices_S2x1600000_S1x1600000_1_0) shapeCasts_S1x1600000_S1600000)
    (iotaInDim S100000 32 0)

/-- Node numbers as a column of indices. -/
def col (v : Entries) : EntryCol := broadcastInDim S1700000x1 ![0] bcast_S1700000_S1700000x1_0 v

/-- A negative node number counts from the end: v + 100000 where v < 0; as a column of indices. -/
def wrap (v : Entries) : EntryCol :=
  col (select (cmpi .slt v (broadcastInDim S1700000 ![] bcast_S_S1700000 (constantI S_ 32 0#32)))
    (addi v (broadcastInDim S1700000 ![] bcast_S_S1700000 (constantI S_ 32 100000#32))) v)

/-- For each node, the number of list entries whose target it is: ones added into zeros. -/
def deg (e : Edges) : FVec Ideal S100000 .f32 :=
  Host.scatterAdd (F := Ideal) scatter_S100000_S1700000x1_S1700000_n_0_0_1
    (broadcastInDim S100000 ![] bcast_S_S100000 (constant (F := Ideal) S_ .f32 0x00000000#32)) (wrap (dst e))
    (broadcastInDim S1700000 ![] bcast_S_S1700000 (constant (F := Ideal) S_ .f32 0x3F800000#32))

/-- deg^(-1/2) where the degree is positive, zero elsewhere. -/
def dinv (e : Edges) : FVec Ideal S100000 .f32 :=
  select (cmpf (F := Ideal) .ogt (deg e) (broadcastInDim S100000 ![] bcast_S_S100000 (constant (F := Ideal) S_ .f32 0x00000000#32)))
    (Host.rsqrt (F := Ideal) (deg e)) (broadcastInDim S100000 ![] bcast_S_S100000 (id (constant (F := Ideal) S_ .f32 0x00000000#32)))

/-- Per list entry: dinv at its source times dinv at its target. -/
def nrm (e : Edges) : FVec Ideal S1700000 .f32 :=
  mulf (F := Ideal) (Host.gather gather_S100000_S1700000x1_S1700000_n_0_n_n_0_1_1 (dinv e) (wrap (src e)))
    (Host.gather gather_S100000_S1700000x1_S1700000_n_0_n_n_0_1_1 (dinv e) (wrap (dst e)))

/-- One propagation of 128-wide node rows along a list of entries with sources s, targets d and norms n: each entry's
    source row, scaled by the entry's norm, added into its target's row, from zero rows. -/
def aggRows128 (s d : Entries) (n : FVec Ideal S1700000 .f32) (h : Nodes128) : Nodes128 :=
  Host.scatterAdd (F := Ideal) scatter_S100000x128_S1700000x1_S1700000x128_1_0_0_1
    (broadcastInDim S100000x128 ![] bcast_S_S100000x128 (constant (F := Ideal) S_ .f32 0x00000000#32)) (col d)
    (mulf (F := Ideal) (Host.gather gather_S100000x128_S1700000x1_S1700000x128_1_0_n_n_0_1_1128 h (wrap s))
      (broadcastInDim S1700000x128 ![0, 1] bcast_S1700000x1_S1700000x128_0_1
        (broadcastInDim S1700000x1 ![0] bcast_S1700000_S1700000x1_0 n)))

/-- The same propagation of 40-wide node rows. -/
def aggRows40 (s d : Entries) (n : FVec Ideal S1700000 .f32) (h : Nodes40) : Nodes40 :=
  Host.scatterAdd (F := Ideal) scatter_S100000x40_S1700000x1_S1700000x40_1_0_0_1
    (broadcastInDim S100000x40 ![] bcast_S_S100000x40 (constant (F := Ideal) S_ .f32 0x00000000#32)) (col d)
    (mulf (F := Ideal) (Host.gather gather_S100000x40_S1700000x1_S1700000x40_1_0_n_n_0_1_140 h (wrap s))
      (broadcastInDim S1700000x40 ![0, 1] bcast_S1700000x1_S1700000x40_0_1
        (broadcastInDim S1700000x1 ![0] bcast_S1700000_S1700000x1_0 n)))

/-- One propagation along the graph's own list. -/
def agg128 (e : Edges) (h : Nodes128) : Nodes128 := aggRows128 (src e) (dst e) (nrm e) h

/-- The same for 40-wide rows. -/
def agg40 (e : Edges) (h : Nodes40) : Nodes40 := aggRows40 (src e) (dst e) (nrm e) h

/-- Node rows times a 128 × 128 weight matrix. -/
def dot128 (h : Nodes128) (W : FVec Ideal S128x128 .f32) : Nodes128 :=
  Host.dotGeneral (F := Ideal) dot_S100000x128_S128x128_S100000x128_1_0_0_1_n_n none h W

/-- Node rows times the 128 × 40 weight matrix. -/
def dot40 (h : Nodes128) (W : FVec Ideal S128x40 .f32) : Nodes40 :=
  Host.dotGeneral (F := Ideal) dot_S100000x128_S128x40_S100000x40_1_0_0_1_n_n none h W

/-- The bias added to every node row, then the maximum with zero. -/
def biasRelu (a : Nodes128) (b : FVec Ideal S128 .f32) : Nodes128 :=
  maximumf (F := Ideal) (addf (F := Ideal) a (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The bias added to every 40-wide node row. -/
def addBias40 (a : Nodes40) (b : FVec Ideal S40 .f32) : Nodes40 :=
  addf (F := Ideal) a (broadcastInDim S100000x40 ![0, 1] bcast_S1x40_S100000x40_0_1 (broadcastInDim S1x40 ![1] bcast_S40_S1x40_1 b))

/-- Each row's maximum, from minus infinity (and once more the maximum with minus infinity). -/
def rowMax (z : Nodes40) : FVec Ideal S100000 .f32 :=
  maximumf (F := Ideal) (broadcastInDim S100000 ![] bcast_S_S100000 (constant (F := Ideal) S_ .f32 0xFF800000#32))
    (Host.reduce (FloatOps.maximumf (F := Ideal)) z (constant (F := Ideal) S_ .f32 0xFF800000#32) reducesTo_S100000x40_S100000_d1 h_S_)

/-- A per-node value spread along the node's row. -/
def alongRows (v : FVec Ideal S100000x1 .f32) : Nodes40 :=
  broadcastInDim S100000x40 ![0, 1] bcast_S100000x1_S100000x40_0_1 v

/-- Each row minus its maximum. -/
def shifted (z : Nodes40) : Nodes40 :=
  subf (F := Ideal) z (alongRows (broadcastInDim S100000x1 ![0] bcast_S100000_S100000x1_0 (rowMax z)))

/-- The logarithm of the softmax along each row: the shifted row minus the logarithm of the sum of its exponentials. -/
def logSoftmax (z : Nodes40) : Nodes40 :=
  subf (F := Ideal) (shifted z) (alongRows (Host.log (F := Ideal) (broadcastInDim S100000x1 ![0] bcast_S100000_S100000x1_0
    (Host.reduceAdd (F := Ideal) (Host.exp (F := Ideal) (shifted z)) (constant (F := Ideal) S_ .f32 0x00000000#32) reducesTo_S100000x40_S100000_d1 h_S_))))

/-- The three layers. -/
def network (x : Nodes128) (e : Edges) (W1 : FVec Ideal S128x128 .f32) (b1 : FVec Ideal S128 .f32)
    (W2 : FVec Ideal S128x128 .f32) (b2 : FVec Ideal S128 .f32)
    (W3 : FVec Ideal S128x40 .f32) (b3 : FVec Ideal S40 .f32) : Nodes40 :=
  logSoftmax (addBias40 (agg40 e (dot40 (biasRelu (agg128 e (dot128 (biasRelu (agg128 e (dot128 x W1)) b1) W2)) b2) W3)) b3)

end Cert.Gcn

end
-- ==== Proof.LibGraphLayer.lean ====
/-
  The mathematics of one graph-convolution layer, entry by entry, at the ideal values, and its two spellings.

  For a matrix x (M rows, K columns) and a column n (M rows, one column), `scaleRows x n` multiplies row a of x by the
  one entry n(a, 0). For a matrix y (M rows, K columns), a weight matrix W (K rows, N columns) and a row b (one row, N
  columns), `affine y W b` has at (a, q) the value (∑ c, y(a, c) · W(c, q)) + b(0, q). `ramp` is the maximum with the
  extended real the word of +0.0 denotes, entry by entry. The operations are kept in exactly this order and association:
  no identity of the extended reals is used, only the reading of each array operation at an index.

  Each of the three is read in two spellings. On a tile of rows: the column is broadcast across the tile's columns, the
  two factors of the product are rounded to bf16 (the identity at the ideal values) and multiplied into a zero
  accumulator, the bias is a [1, N] row broadcast down the tile, and the zero of the maximum is a scalar spread over the
  tile. On a whole array: the column is a vector of shape [M] broadcast first to [M, 1] and then across the columns, the
  product is the host's, the bias is a vector of shape [N] broadcast to one row and then down the rows, and the zero is
  a scalar broadcast to the array's shape. A vector reshaped to a column (or to a row) is the same column (row).

  Every entry of `scaleRows` and of `affine` reads one row of its first operand only, so a block of rows of the value is
  the same function of the same rows: that is what lets a program compute it block by block.

  `twoLayer` is the two-layer network: with an aggregation `agg` of node rows along the graph's edges left abstract,
  layer(x) = affine (scaleRows (agg (scaleRows x ns)) nd) W b, the first layer followed by `ramp`.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.GraphLayer

open Idealize.ShloMosaic Idealize.ShloMosaic.ValueIdx

variable {M K N : Nat}

/-- The extended real that the word of +0.0 denotes, kept as its word: both programs write the same word. -/
abbrev zeroWord : EReal := Ideal.ofBits .f32 0x00000000#32

/-! ## The functions -/

/-- Row a of x multiplied by the column's entry n(a, 0). -/
def scaleRows (x : FVec Ideal ⟨2, ![M, K]⟩ .f32) (n : FVec Ideal ⟨2, ![M, 1]⟩ .f32) : FVec Ideal ⟨2, ![M, K]⟩ .f32 :=
  fun i => x i * n (ix2 (show Fin M from i 0) (0 : Fin 1))

theorem scaleRows_apply (x : FVec Ideal ⟨2, ![M, K]⟩ .f32) (n : FVec Ideal ⟨2, ![M, 1]⟩ .f32) (a : Fin M) (q : Fin K) :
    scaleRows x n (ix2 a q) = x (ix2 a q) * n (ix2 a (0 : Fin 1)) := rfl

/-- The product with W plus the bias row, entry by entry. -/
def affine (y : FVec Ideal ⟨2, ![M, K]⟩ .f32) (W : FVec Ideal ⟨2, ![K, N]⟩ .f32) (b : FVec Ideal ⟨2, ![1, N]⟩ .f32) :
    FVec Ideal ⟨2, ![M, N]⟩ .f32 :=
  fun i => (∑ c : Fin K, y (ix2 (show Fin M from i 0) c) * W (ix2 c (show Fin N from i 1)))
    + b (ix2 (0 : Fin 1) (show Fin N from i 1))

theorem affine_apply (y : FVec Ideal ⟨2, ![M, K]⟩ .f32) (W : FVec Ideal ⟨2, ![K, N]⟩ .f32) (b : FVec Ideal ⟨2, ![1, N]⟩ .f32)
    (a : Fin M) (q : Fin N) :
    affine y W b (ix2 a q) = (∑ c : Fin K, y (ix2 a c) * W (ix2 c q)) + b (ix2 (0 : Fin 1) q) := rfl

/-- The maximum with zero, entry by entry. -/
def ramp (a : FVec Ideal ⟨2, ![M, K]⟩ .f32) : FVec Ideal ⟨2, ![M, K]⟩ .f32 := fun i => max (a i) zeroWord

theorem ramp_apply (a : FVec Ideal ⟨2, ![M, K]⟩ .f32) (i : (⟨2, ![M, K]⟩ : Shape).Idx) : ramp a i = max (a i) zeroWord := rfl

/-- The two-layer network over an abstract aggregation of node rows. -/
def twoLayer {D H E : Nat} (agg : FVec Ideal ⟨2, ![M, D]⟩ .f32 → FVec Ideal ⟨2, ![M, D]⟩ .f32)
    (agg' : FVec Ideal ⟨2, ![M, H]⟩ .f32 → FVec Ideal ⟨2, ![M, H]⟩ .f32)
    (x : FVec Ideal ⟨2, ![M, D]⟩ .f32) (ns nd : FVec Ideal ⟨2, ![M, 1]⟩ .f32)
    (W1 : FVec Ideal ⟨2, ![D, H]⟩ .f32) (b1 : FVec Ideal ⟨2, ![1, H]⟩ .f32)
    (W2 : FVec Ideal ⟨2, ![H, E]⟩ .f32) (b2 : FVec Ideal ⟨2, ![1, E]⟩ .f32) : FVec Ideal ⟨2, ![M, E]⟩ .f32 :=
  affine (scaleRows (agg' (scaleRows (ramp (affine (scaleRows (agg (scaleRows x ns)) nd) W1 b1)) ns)) nd) W2 b2

/-! ## A column broadcast across the columns, a vector made a column, a vector made a row -/

/-- An [M, 1] column broadcast to [M, K] reads, at (a, q), the column's entry at row a. -/
theorem broadcastTo_a1_ab_apply (v : (⟨2, ![M, 1]⟩ : Shape).Idx → EReal) (h : (⟨2, ![M, 1]⟩ : Shape).Broadcasts ⟨2, ![M, K]⟩)
    (a : Fin M) (q : Fin K) : broadcastTo ⟨2, ![M, K]⟩ v h (ix2 a q) = v (ix2 a (0 : Fin 1)) := by
  refine broadcastTo_apply v h (ix2 a q) (ix2 a (0 : Fin 1)) fun ax => ?_
  match ax with
  | ⟨0, _⟩ =>
    show a.val = if M = 1 then 0 else a.val
    split
    · have := a.isLt; omega
    · rfl
  | ⟨1, _⟩ =>
    show (0 : Nat) = if 1 = 1 then 0 else q.val
    rfl

/-- A vector of shape [M] reshaped to a column [M, 1] reads, at (a, 0), the vector's entry a. -/
theorem shapeCast_a_a1_apply (v : (⟨1, ![M]⟩ : Shape).Idx → EReal) (h : (⟨1, ![M]⟩ : Shape).ShapeCasts ⟨2, ![M, 1]⟩)
    (a : Fin M) (u : Fin 1) : shapeCast ⟨2, ![M, 1]⟩ v h (ix2 a u) = v (ix1 a) :=
  shapeCast_apply v h _ _ (by
    have hu : u.val = 0 := by omega
    rw [Shape.rowMajor_val_two, Shape.rowMajor_val_one]
    show a.val = a.val * 1 + u.val
    rw [hu, Nat.mul_one, Nat.add_zero])

/-- A vector of shape [M] broadcast to a column [M, 1] along axis 0 reads, at (a, 0), the vector's entry a. -/
theorem broadcastInDim_a_a1_apply (v : (⟨1, ![M]⟩ : Shape).Idx → EReal)
    (h : (⟨1, ![M]⟩ : Shape).BroadcastsInDim ⟨2, ![M, 1]⟩ ![0]) (a : Fin M) (u : Fin 1) :
    broadcastInDim ⟨2, ![M, 1]⟩ ![0] h v (ix2 a u) = v (ix1 a) :=
  broadcastInDim_apply (![0] : Fin 1 → Fin 2) h v (ix2 a u) (ix1 a) (fun ax => by
    match ax with
    | ⟨0, _⟩ =>
      show a.val = if M = 1 then 0 else a.val
      split
      · have := a.isLt; omega
      · rfl)

/-- A vector of shape [N] broadcast to a row [1, N] along axis 1 reads, at (0, q), the vector's entry q. -/
theorem broadcastInDim_b_1b_apply (v : (⟨1, ![N]⟩ : Shape).Idx → EReal)
    (h : (⟨1, ![N]⟩ : Shape).BroadcastsInDim ⟨2, ![1, N]⟩ ![1]) (u : Fin 1) (q : Fin N) :
    broadcastInDim ⟨2, ![1, N]⟩ ![1] h v (ix2 u q) = v (ix1 q) :=
  broadcastInDim_apply (![1] : Fin 1 → Fin 2) h v (ix2 u q) (ix1 q) (fun ax => by
    match ax with
    | ⟨0, _⟩ =>
      show q.val = if N = 1 then 0 else q.val
      split
      · have := q.isLt; omega
      · rfl)

/-- A column [M, 1] broadcast to [M, K] along axes 0 and 1 reads, at (a, q), the column's entry at row a. -/
theorem broadcastInDim_a1_ab_apply (v : (⟨2, ![M, 1]⟩ : Shape).Idx → EReal)
    (h : (⟨2, ![M, 1]⟩ : Shape).BroadcastsInDim ⟨2, ![M, K]⟩ ![0, 1]) (a : Fin M) (q : Fin K) :
    broadcastInDim ⟨2, ![M, K]⟩ ![0, 1] h v (ix2 a q) = v (ix2 a (0 : Fin 1)) :=
  broadcastInDim_apply (![0, 1] : Fin 2 → Fin 2) h v (ix2 a q) (ix2 a (0 : Fin 1)) (fun ax => by
    match ax with
    | ⟨0, _⟩ =>
      show a.val = if M = 1 then 0 else a.val
      split
      · have := a.isLt; omega
      · rfl
    | ⟨1, _⟩ =>
      show (0 : Nat) = if 1 = 1 then 0 else q.val
      rfl)

/-- A row [1, N] broadcast to [M, N] along axes 0 and 1 reads, at (a, q), the row's entry at column q. -/
theorem broadcastInDim_1b_ab_apply (v : (⟨2, ![1, N]⟩ : Shape).Idx → EReal)
    (h : (⟨2, ![1, N]⟩ : Shape).BroadcastsInDim ⟨2, ![M, N]⟩ ![0, 1]) (a : Fin M) (q : Fin N) :
    broadcastInDim ⟨2, ![M, N]⟩ ![0, 1] h v (ix2 a q) = v (ix2 (0 : Fin 1) q) :=
  broadcastInDim_apply (![0, 1] : Fin 2 → Fin 2) h v (ix2 a q) (ix2 (0 : Fin 1) q) (fun ax => by
    match ax with
    | ⟨0, _⟩ =>
      show (0 : Nat) = if 1 = 1 then 0 else a.val
      rfl
    | ⟨1, _⟩ =>
      show q.val = if N = 1 then 0 else q.val
      split
      · have := q.isLt; omega
      · rfl)

/-! ## The product into a zero accumulator, at an index -/

/-- The plain product of an M×K by a K×N matrix into a zero accumulator reads, at (a, b), the sum over the contracted
    coordinate of the products of the entries. -/
theorem matmul_plain_zero_apply {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-! ## The tile's spelling -/

/-- Rows scaled on a tile: the column broadcast across the tile's columns, then the product. -/
theorem tile_scale (h : (⟨2, ![M, K]⟩ : Shape).ShapeCasts ⟨2, ![M, K]⟩) (h' : (⟨2, ![M, 1]⟩ : Shape).ShapeCasts ⟨2, ![M, 1]⟩)
    (hb : (⟨2, ![M, 1]⟩ : Shape).Broadcasts ⟨2, ![M, K]⟩)
    (x : FVec Ideal ⟨2, ![M, K]⟩ .f32) (n : FVec Ideal ⟨2, ![M, 1]⟩ .f32) :
    mulf (shapeCast ⟨2, ![M, K]⟩ x h) (broadcastTo ⟨2, ![M, K]⟩ (shapeCast ⟨2, ![M, 1]⟩ n h') hb) = scaleRows x n := by
  rw [shapeCast_self x h, shapeCast_self n h']
  funext j
  obtain ⟨a, q, rfl⟩ : ∃ (a : Fin M) (q : Fin K), j = ix2 a q := ⟨j 0, j 1, eq_ix2 j⟩
  rw [scaleRows_apply, mulf_apply, broadcastTo_a1_ab_apply n hb]

/-- The product with the weights and the bias row on a tile: the two factors rounded to bf16 (the identity at the
    ideal values) and multiplied into a zero accumulator, then the bias row broadcast down the tile and added. -/
theorem tile_affine (D : DotDims ⟨2, ![M, K]⟩ ⟨2, ![K, N]⟩ ⟨2, ![M, N]⟩) (hD : D = DotDims.plain M K N)
    (hbits : FTy.bits .bf16 < FTy.bits .f32)
    (h1 : (⟨2, ![1, N]⟩ : Shape).ShapeCasts ⟨2, ![1, N]⟩) (hb : (⟨2, ![1, N]⟩ : Shape).Broadcasts ⟨2, ![M, N]⟩)
    (y : FVec Ideal ⟨2, ![M, K]⟩ .f32) (W : FVec Ideal ⟨2, ![K, N]⟩ .f32) (b : FVec Ideal ⟨2, ![1, N]⟩ .f32) :
    addf (matmul D none (truncf .bf16 y hbits) (truncf .bf16 W hbits) (constant (F := Ideal) ⟨2, ![M, N]⟩ .f32 0x00000000#32))
        (broadcastTo ⟨2, ![M, N]⟩ (shapeCast ⟨2, ![1, N]⟩ b h1) hb)
      = affine y W b := by
  subst hD
  rw [shapeCast_self b h1]
  funext j
  obtain ⟨a, q, rfl⟩ : ∃ (a : Fin M) (q : Fin N), j = ix2 a q := ⟨j 0, j 1, eq_ix2 j⟩
  rw [affine_apply, addf_apply, matmul_plain_zero_apply, broadcastTo_1b_ab_apply b hb]
  rfl

/-- The maximum of a tile with a scalar zero word spread over the tile. -/
theorem tile_ramp (a : FVec Ideal ⟨2, ![M, K]⟩ .f32) :
    maximumf a (broadcast ⟨2, ![M, K]⟩ (Scalar.ofBits (F := Ideal) .f32 0x00000000#32)) = ramp a := by
  funext i
  rw [ramp_apply, maximumf_apply, broadcast_apply]
  rfl

/-! ## The whole array's spelling -/

/-- Rows scaled on the whole array: the vector made a column, the column broadcast across the columns, the product;
    the column is the vector reshaped. -/
theorem host_scale (h1 : (⟨1, ![M]⟩ : Shape).BroadcastsInDim ⟨2, ![M, 1]⟩ ![0])
    (h2 : (⟨2, ![M, 1]⟩ : Shape).BroadcastsInDim ⟨2, ![M, K]⟩ ![0, 1]) (hs : (⟨1, ![M]⟩ : Shape).ShapeCasts ⟨2, ![M, 1]⟩)
    (X : FVec Ideal ⟨2, ![M, K]⟩ .f32) (nv : FVec Ideal ⟨1, ![M]⟩ .f32) :
    mulf X (broadcastInDim ⟨2, ![M, K]⟩ ![0, 1] h2 (broadcastInDim ⟨2, ![M, 1]⟩ ![0] h1 nv))
      = scaleRows X (shapeCast ⟨2, ![M, 1]⟩ nv hs) := by
  funext j
  obtain ⟨a, q, rfl⟩ : ∃ (a : Fin M) (q : Fin K), j = ix2 a q := ⟨j 0, j 1, eq_ix2 j⟩
  rw [scaleRows_apply, mulf_apply, broadcastInDim_a1_ab_apply _ h2, broadcastInDim_a_a1_apply nv h1,
    shapeCast_a_a1_apply nv hs]

/-- The product with the weights and the bias on the whole array: the host's product, then the bias vector made a row,
    broadcast down the rows and added; the row is the vector reshaped. -/
theorem host_affine (D : DotDims ⟨2, ![M, K]⟩ ⟨2, ![K, N]⟩ ⟨2, ![M, N]⟩) (hD : D = DotDims.plain M K N)
    (h1 : (⟨1, ![N]⟩ : Shape).BroadcastsInDim ⟨2, ![1, N]⟩ ![1])
    (h2 : (⟨2, ![1, N]⟩ : Shape).BroadcastsInDim ⟨2, ![M, N]⟩ ![0, 1]) (hs : (⟨1, ![N]⟩ : Shape).ShapeCasts ⟨2, ![1, N]⟩)
    (Y : FVec Ideal ⟨2, ![M, K]⟩ .f32) (W : FVec Ideal ⟨2, ![K, N]⟩ .f32) (bv : FVec Ideal ⟨1, ![N]⟩ .f32) :
    addf (Host.dotGeneral D none Y W) (broadcastInDim ⟨2, ![M, N]⟩ ![0, 1] h2 (broadcastInDim ⟨2, ![1, N]⟩ ![1] h1 bv))
      = affine Y W (shapeCast ⟨2, ![1, N]⟩ bv hs) := by
  subst hD
  funext j
  obtain ⟨a, q, rfl⟩ : ∃ (a : Fin M) (q : Fin N), j = ix2 a q := ⟨j 0, j 1, eq_ix2 j⟩
  rw [affine_apply, addf_apply, StackMember.dotGeneral_plain_apply, broadcastInDim_1b_ab_apply _ h2,
    broadcastInDim_b_1b_apply bv h1, shapeCast_a_1a_apply bv hs]

/-- The maximum of the array with the scalar zero word broadcast to the array's shape. -/
theorem host_ramp (h0 : (⟨0, ![]⟩ : Shape).BroadcastsInDim ⟨2, ![M, K]⟩ ![]) (a : FVec Ideal ⟨2, ![M, K]⟩ .f32) :
    maximumf a (broadcastInDim ⟨2, ![M, K]⟩ ![] h0 (constant (F := Ideal) ⟨0, ![]⟩ .f32 0x00000000#32)) = ramp a := by
  funext j
  obtain ⟨p, q, rfl⟩ : ∃ (p : Fin M) (q : Fin K), j = ix2 p q := ⟨j 0, j 1, eq_ix2 j⟩
  rw [ramp_apply, maximumf_apply,
    broadcastInDim_apply (![] : Fin 0 → Fin 2) h0 _ (ix2 p q) ix0 (fun ax => ax.elim0)]
  rfl

/-! ## Row by row -/

/-- An entry of the scaled rows reads one entry of x and one of the column: if the block's entry (a, q) is X's entry
    (A, q) and the block column's entry a is the column's entry A, the two values agree. -/
theorem scaleRows_rows {R : Nat} (X : FVec Ideal ⟨2, ![M, K]⟩ .f32) (C : FVec Ideal ⟨2, ![M, 1]⟩ .f32)
    (xb : FVec Ideal ⟨2, ![R, K]⟩ .f32) (cb : FVec Ideal ⟨2, ![R, 1]⟩ .f32) (a : Fin R) (A : Fin M) (q : Fin K)
    (hx : xb (ix2 a q) = X (ix2 A q)) (hc : cb (ix2 a (0 : Fin 1)) = C (ix2 A (0 : Fin 1))) :
    scaleRows xb cb (ix2 a q) = scaleRows X C (ix2 A q) := by
  rw [scaleRows_apply, scaleRows_apply, hx, hc]

/-- An entry of the affine map reads one row of its first operand: if row a of the block is row A of Y, the two values
    agree. -/
theorem affine_rows {R : Nat} (Y : FVec Ideal ⟨2, ![M, K]⟩ .f32) (yb : FVec Ideal ⟨2, ![R, K]⟩ .f32)
    (W : FVec Ideal ⟨2, ![K, N]⟩ .f32) (b : FVec Ideal ⟨2, ![1, N]⟩ .f32) (a : Fin R) (A : Fin M) (q : Fin N)
    (hy : ∀ c : Fin K, yb (ix2 a c) = Y (ix2 A c)) :
    affine yb W b (ix2 a q) = affine Y W b (ix2 A q) := by
  have hs : (∑ c : Fin K, yb (ix2 a c) * W (ix2 c q)) = ∑ c : Fin K, Y (ix2 A c) * W (ix2 c q) :=
    Finset.sum_congr rfl fun c _ => by rw [hy c]
  rw [affine_apply, affine_apply, hs]

end Cert.GraphLayer

end
-- ==== Proof.TileDot0.lean ====
/-
  The first matrix product, computed tile by tile, is the whole product.

  The rows of the node array are cut into 20 blocks of 5000 rows. At block t the body loads rows 5000 t … 5000 t + 4999 of
  the node array and the whole 128 × 128 weight matrix, rounds both to bf16 (the identity on extended reals), multiplies
  them into a zero accumulator, and stores the 5000 × 128 product as block t of the result. Entry (p, q) of that tile is
  the sum over k of x (5000 t + p, k) · W (k, q), which is entry (5000 t + p, q) of the product of the whole arrays: an
  entry of a matrix product reads one row of the left factor. The 20 blocks tile the 100000 rows, so after the last block
  the result array is the product.
-/
import proofs.«143151_j62251255988834_1_alg».proof.Proof.Gen.KernelIdeal.Frame
import proofs.«143151_j62251255988834_1_alg».proof.Proof.GcnSpec
import proofs.«143151_j62251255988834_1_alg».proof.Proof.LibGraphLayer
import Idealize.ShloMosaic.Lib.Pipeline.Value
import Idealize.ShloMosaic.Lib.StackMember

set_option maxRecDepth 16384

noncomputable section

namespace Cert.KernelIdeal.Tiles

open Cert.KernelIdeal Cert.KernelIdeal.Gen Idealize.ShloMosaic Idealize.ShloMosaic.TcCoe Idealize.ShloMosaic.ValueIdx
open Idealize.ShloMosaic.Pipeline (Dat)

theorem zero_offsets : (![0, 0] : Fin 2 → Nat) = fun _ => 0 := funext fun a => by fin_cases a <;> rfl

/-- Entry j of the tile's product is entry i of the whole product, when row j 0 of the tile's left factor is row i 0 of
    the whole left factor, the right factors agree and the columns agree. -/
theorem dotTile128_at (X : FVec Ideal S100000x128 .f32) (W : FVec Ideal S128x128 .f32)
    (x0 : Vec Ideal S5000x128 .f32) (x1 : Vec Ideal S128x128 .f32) (j : S5000x128.Idx) (i : S100000x128.Idx)
    (hx : ∀ k : Fin 128, x0 (ix2 (j 0) k) = X (ix2 (i 0) k)) (hw : x1 = W) (hq : (j 1).val = (i 1).val) :
    k0_pay1 (F := Ideal) x0 x1 j = Cert.Gcn.dot128 X W i := by
  subst hw
  obtain ⟨p, q, rfl⟩ : ∃ (p : Fin 5000) (q : Fin 128), j = ix2 p q := ⟨j 0, j 1, eq_ix2 j⟩
  obtain ⟨a, b, rfl⟩ : ∃ (a : Fin 100000) (b : Fin 128), i = ix2 a b := ⟨i 0, i 1, eq_ix2 i⟩
  have hqb : q = b := Fin.ext hq
  subst hqb
  unfold k0_pay1 Cert.Gcn.dot128
  refine (Cert.GraphLayer.matmul_plain_zero_apply (M := 5000) (K := 128) (N := 128) none _ _ p q).trans ?_
  refine Eq.trans ?_ (StackMember.dotGeneral_plain_apply (m := 100000) (k := 128) (n := 128) none X x1 a q).symm
  exact Finset.sum_congr rfl fun k _ => congrArg (· * x1 (ix2 k q)) (hx k)

section
variable (V : (c : Dev nD) → (b : Ref sig .tc) → Buf (Elt Ideal) ((c : Thread nD τ).loc b))

/-- The printed block index maps over the 20 points: the node rows' block moves with the result's, along rows only; the
    weights' block stays. -/
theorem blocks0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Each of the 20 row blocks is some point's. -/
theorem blocks0_onto : ∀ q0 : Fin 20, ∃ t : Fin cfg0.N, win0_2.index t = ![q0.val, 0] :=
  (by decide +kernel : ∀ q0 : Fin 20, ∃ t : Fin grid0.N, win0_2.index t = ![q0.val, 0])

/-- What point t writes back is block t of the whole product. -/
theorem flushed0 (c : Dev nD) (t : Fin cfg0.N) :
    (dat0 V c).flushed 2 t = ((cfg0.win 2).blk t).view.read (Elt Ideal) (Cert.Gcn.dot128 (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := blocks0 t
  funext j
  refine dotTile128_at (V c main_arg0) (V c main_arg2) (iblk0 V c 0 t) (iblk0 V c 1 t) j (((cfg0.win 2).blk t).view.emb j) (fun k => ?_) ?_ ?_
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · funext y
    show V c main_arg2 (((cfg0.win 1).blk t).view.emb y) = V c main_arg2 y
    refine congrArg (V c main_arg2) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show (j 1).val = win0_2.index t (1 : Fin 2) * 128 + 1 * (j 1).val; omega

/-- An index of the result array is in point t's block iff each coordinate is in the block's range. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v35).slice (win0_2.rect t)).set ↔ _
  rw [View.set_slice_whole, Rect.mem_set_unit]
  exact Iff.rfl

/-- Row r lies in block r / 5000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := blocks0_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the result array is the whole product of the arrays the region found. -/
theorem product0 (c : Dev nD) : (dat0 V c).arrAt 2 cfg0.N = Cert.Gcn.dot128 (V c main_arg0) (V c main_arg2) :=
  (dat0 V c).arrAt_eq_of_cover 2 _ (fun t _ => flushed0 V c t) cover0

end

end Cert.KernelIdeal.Tiles

end
-- ==== Proof.TileDot2.lean ====
/-
  The second matrix product, tile by tile, is the whole product: the same argument as for the first one, over the rows of
  the first layer's output and the second weight matrix. Block t of the result holds, at (p, q), the sum over k of
  h (5000 t + p, k) · W (k, q); the tile's rows are first reshaped to their own shape (the identity) and both factors
  rounded to bf16 (the identity on extended reals). The 20 blocks tile the rows.
-/
import proofs.«143151_j62251255988834_1_alg».proof.Proof.Gen.KernelIdeal.Frame
import proofs.«143151_j62251255988834_1_alg».proof.Proof.GcnSpec
import proofs.«143151_j62251255988834_1_alg».proof.Proof.LibGraphLayer
import Idealize.ShloMosaic.Lib.Pipeline.Value
import Idealize.ShloMosaic.Lib.StackMember

set_option maxRecDepth 16384

noncomputable section

namespace Cert.KernelIdeal.Tiles

open Cert.KernelIdeal Cert.KernelIdeal.Gen Idealize.ShloMosaic Idealize.ShloMosaic.TcCoe Idealize.ShloMosaic.ValueIdx
open Idealize.ShloMosaic.Pipeline (Dat)

theorem zero_offsets2 : (![0, 0] : Fin 2 → Nat) = fun _ => 0 := funext fun a => by fin_cases a <;> rfl

/-- Entry j of the tile's product is entry i of the whole product, when row j 0 of the tile's left factor is row i 0 of
    the whole left factor, the right factors agree and the columns agree. -/
theorem dotTile_at2 (X : FVec Ideal S100000x128 .f32) (W : FVec Ideal S128x128 .f32)
    (x0 : Vec Ideal S5000x128 .f32) (x1 : Vec Ideal S128x128 .f32) (j : S5000x128.Idx) (i : S100000x128.Idx)
    (hx : ∀ k : Fin 128, x0 (ix2 (j 0) k) = X (ix2 (i 0) k)) (hw : x1 = W) (hq : (j 1).val = (i 1).val) :
    k2_pay1 (F := Ideal) x0 x1 j = Cert.Gcn.dot128 X W i := by
  subst hw
  obtain ⟨p, q, rfl⟩ : ∃ (p : Fin 5000) (q : Fin 128), j = ix2 p q := ⟨j 0, j 1, eq_ix2 j⟩
  obtain ⟨a, b, rfl⟩ : ∃ (a : Fin 100000) (b : Fin 128), i = ix2 a b := ⟨i 0, i 1, eq_ix2 i⟩
  have hqb : q = b := Fin.ext hq
  subst hqb
  unfold k2_pay1 Cert.Gcn.dot128
  rw [shapeCast_self x0 shapeCasts_S5000x128_S5000x128]
  refine (Cert.GraphLayer.matmul_plain_zero_apply (M := 5000) (K := 128) (N := 128) none _ _ p q).trans ?_
  refine Eq.trans ?_ (StackMember.dotGeneral_plain_apply (m := 100000) (k := 128) (n := 128) none X x1 a q).symm
  exact Finset.sum_congr rfl fun k _ => congrArg (· * x1 (ix2 k q)) (hx k)

section
variable (V : (c : Dev nD) → (b : Ref sig .tc) → Buf (Elt Ideal) ((c : Thread nD τ).loc b))

/-- The printed block index maps over the 20 points: the node rows' block moves with the result's, along rows only; the
    weights' block stays. -/
theorem blocks2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 19 :=
  (by decide +kernel : ∀ t : Fin grid2.N, _)

/-- Each of the 20 row blocks is some point's. -/
theorem blocks2_onto : ∀ q0 : Fin 20, ∃ t : Fin cfg2.N, win2_2.index t = ![q0.val, 0] :=
  (by decide +kernel : ∀ q0 : Fin 20, ∃ t : Fin grid2.N, win2_2.index t = ![q0.val, 0])

/-- What point t writes back is block t of the whole product. -/
theorem flushed2 (c : Dev nD) (t : Fin cfg2.N) :
    (dat2 V c).flushed 2 t = ((cfg2.win 2).blk t).view.read (Elt Ideal) (Cert.Gcn.dot128 (V c main_v50) (V c main_arg4)) := by
  show (cfg2.win 2).cut (grid2.coords t) ((dat2 V c).after 2 t) = _
  rw [after2_2]
  unfold out2_2
  rw [View.canon_unit_zero zero_offsets2]
  simp only [View.ld_unit_zero (S := S5000x128) zero_offsets2, View.ld_unit_zero (S := S128x128) zero_offsets2]
  obtain ⟨e0, e1, e2, e3, e4, e5⟩ := blocks2 t
  funext j
  refine dotTile_at2 (V c main_v50) (V c main_arg4) (iblk2 V c 0 t) (iblk2 V c 1 t) j (((cfg2.win 2).blk t).view.emb j) (fun k => ?_) ?_ ?_
  · show V c main_v50 (((cfg2.win 0).blk t).view.emb (ix2 (j 0) k)) = V c main_v50 (ix2 ((((cfg2.win 2).blk t).view.emb j) 0) k)
    refine congrArg (V c main_v50) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · funext y
    show V c main_arg4 (((cfg2.win 1).blk t).view.emb y) = V c main_arg4 y
    refine congrArg (V c main_arg4) (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  · show (j 1).val = win2_2.index t (1 : Fin 2) * 128 + 1 * (j 1).val; omega

/-- An index of the result array is in point t's block iff each coordinate is in the block's range. -/
theorem mem_block2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v51).slice (win2_2.rect t)).set ↔ _
  rw [View.set_slice_whole, Rect.mem_set_unit]
  exact Iff.rfl

/-- Row r lies in block r / 5000. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := blocks2_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region the result array is the whole product of the arrays the region found. -/
theorem product2 (c : Dev nD) : (dat2 V c).arrAt 2 cfg2.N = Cert.Gcn.dot128 (V c main_v50) (V c main_arg4) :=
  (dat2 V c).arrAt_eq_of_cover 2 _ (fun t _ => flushed2 V c t) cover2

end

end Cert.KernelIdeal.Tiles

end
-- ==== Proof.TileDot4.lean ====
/-
  The third matrix product, tile by tile, is the whole product: node rows of width 128 against the 128 × 40 weight
  matrix, in 20 blocks of 5000 rows. Block t of the result holds, at (p, q), the sum over k of h (5000 t + p, k) · W (k, q);
  the tile's rows are first reshaped to their own shape (the identity) and both factors rounded to bf16 (the identity on
  extended reals). The 20 blocks tile the rows.
-/
import proofs.«143151_j62251255988834_1_alg».proof.Proof.Gen.KernelIdeal.Frame
import proofs.«143151_j62251255988834_1_alg».proof.Proof.GcnSpec
import proofs.«143151_j62251255988834_1_alg».proof.Proof.LibGraphLayer
import Idealize.ShloMosaic.Lib.Pipeline.Value
import Idealize.ShloMosaic.Lib.StackMember

set_option maxRecDepth 16384

noncomputable section

namespace Cert.KernelIdeal.Tiles

open Cert.KernelIdeal Cert.KernelIdeal.Gen Idealize.ShloMosaic Idealize.ShloMosaic.TcCoe Idealize.ShloMosaic.ValueIdx
open Idealize.ShloMosaic.Pipeline (Dat)

theorem zero_offsets4 : (![0, 0] : Fin 2 → Nat) = fun _ => 0 := funext fun a => by fin_cases a <;> rfl

/-- Entry j of the tile's product is entry i of the whole product, when row j 0 of the tile's left factor is row i 0 of
    the whole left factor, the right factors agree and the columns agree. -/
theorem dotTile_at4 (X : FVec Ideal S100000x128 .f32) (W : FVec Ideal S128x40 .f32)
    (x0 : Vec Ideal S5000x128 .f32) (x1 : Vec Ideal S128x40 .f32) (j : S5000x40.Idx) (i : S100000x40.Idx)
    (hx : ∀ k : Fin 128, x0 (ix2 (j 0) k) = X (ix2 (i 0) k)) (hw : x1 = W) (hq : (j 1).val = (i 1).val) :
    k4_pay1 (F := Ideal) x0 x1 j = Cert.Gcn.dot40 X W i := by
  subst hw
  obtain ⟨p, q, rfl⟩ : ∃ (p : Fin 5000) (q : Fin 40), j = ix2 p q := ⟨j 0, j 1, eq_ix2 j⟩
  obtain ⟨a, b, rfl⟩ : ∃ (a : Fin 100000) (b : Fin 40), i = ix2 a b := ⟨i 0, i 1, eq_ix2 i⟩
  have hqb : q = b := Fin.ext hq
  subst hqb
  unfold k4_pay1 Cert.Gcn.dot40
  rw [shapeCast_self x0 shapeCasts_S5000x128_S5000x128]
  refine (Cert.GraphLayer.matmul_plain_zero_apply (M := 5000) (K := 128) (N := 40) none _ _ p q).trans ?_
  refine Eq.trans ?_ (StackMember.dotGeneral_plain_apply (m := 100000) (k := 128) (n := 40) none X x1 a q).symm
  exact Finset.sum_congr rfl fun k _ => congrArg (· * x1 (ix2 k q)) (hx k)

section
variable (V : (c : Dev nD) → (b : Ref sig .tc) → Buf (Elt Ideal) ((c : Thread nD τ).loc b))

/-- The printed block index maps over the 20 points: the node rows' block moves with the result's, along rows only; the
    weights' block stays. -/
theorem blocks4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 19 :=
  (by decide +kernel : ∀ t : Fin grid4.N, _)

/-- Each of the 20 row blocks is some point's. -/
theorem blocks4_onto : ∀ q0 : Fin 20, ∃ t : Fin cfg4.N, win4_2.index t = ![q0.val, 0] :=
  (by decide +kernel : ∀ q0 : Fin 20, ∃ t : Fin grid4.N, win4_2.index t = ![q0.val, 0])

/-- What point t writes back is block t of the whole product. -/
theorem flushed4 (c : Dev nD) (t : Fin cfg4.N) :
    (dat4 V c).flushed 2 t = ((cfg4.win 2).blk t).view.read (Elt Ideal) (Cert.Gcn.dot40 (V c main_v66) (V c main_arg6)) := by
  show (cfg4.win 2).cut (grid4.coords t) ((dat4 V c).after 2 t) = _
  rw [after4_2]
  unfold out4_2
  rw [View.canon_unit_zero zero_offsets4]
  simp only [View.ld_unit_zero (S := S5000x128) zero_offsets4, View.ld_unit_zero (S := S128x40) zero_offsets4]
  obtain ⟨e0, e1, e2, e3, e4, e5⟩ := blocks4 t
  funext j
  refine dotTile_at4 (V c main_v66) (V c main_arg6) (iblk4 V c 0 t) (iblk4 V c 1 t) j (((cfg4.win 2).blk t).view.emb j) (fun k => ?_) ?_ ?_
  · show V c main_v66 (((cfg4.win 0).blk t).view.emb (ix2 (j 0) k)) = V c main_v66 (ix2 ((((cfg4.win 2).blk t).view.emb j) 0) k)
    refine congrArg (V c main_v66) (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  · funext y
    show V c main_arg6 (((cfg4.win 1).blk t).view.emb y) = V c main_arg6 y
    refine congrArg (V c main_arg6) (funext fun a => Fin.ext ?_)
    match a with
    | ⟨0, _⟩ => show win4_1.index t (0 : Fin 2) * 128 + 1 * (y 0).val = (y 0).val; omega
    | ⟨1, _⟩ => show win4_1.index t (1 : Fin 2) * 40 + 1 * (y 1).val = (y 1).val; omega
  · show (j 1).val = win4_2.index t (1 : Fin 2) * 40 + 1 * (j 1).val; omega

/-- An index of the result array is in point t's block iff each coordinate is in the block's range. -/
theorem mem_block4 (t : Fin cfg4.N) (i : S100000x40.Idx) :
    i ∈ ((cfg4.win 2).blk t).view.set ↔ ∀ a : Fin 2, win4_2.index t a * S5000x40.size a ≤ (i a).val ∧ (i a).val < win4_2.index t a * S5000x40.size a + S5000x40.size a := by
  show i ∈ ((View.whole main_v67).slice (win4_2.rect t)).set ↔ _
  rw [View.set_slice_whole, Rect.mem_set_unit]
  exact Iff.rfl

/-- Row r lies in block r / 5000. -/
theorem cover4 (i : S100000x40.Idx) : ∃ t : Fin cfg4.N, (cfg4.win 2).flush t = true ∧ i ∈ ((cfg4.win 2).blk t).view.set := by
  have hi0 : (i 0).val < 100000 := (i 0).isLt
  have hi1 : (i 1).val < 40 := (i 1).isLt
  obtain ⟨t, ht⟩ := blocks4_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_block4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 40 ≤ (i 1).val ∧ (i 1).val < win4_2.index t (1 : Fin 2) * 40 + 40; omega

/-- After the region the result array is the whole product of the arrays the region found. -/
theorem product4 (c : Dev nD) : (dat4 V c).arrAt 2 cfg4.N = Cert.Gcn.dot40 (V c main_v66) (V c main_arg6) :=
  (dat4 V c).arrAt_eq_of_cover 2 _ (fun t _ => flushed4 V c t) cover4

end

end Cert.KernelIdeal.Tiles

end
-- ==== Proof.TileBias1.lean ====
/-
  A bias row added to every node row and the maximum with zero, computed tile by tile, is the whole-array operation.

  The 100000 node rows are cut into 20 blocks of 5000 rows. At block t the body loads rows 5000 t … 5000 t + 4999 of the
  node array and the whole bias row (one row of 128 entries), spreads the bias row down the tile, adds, and takes the
  maximum with the word of +0.0 spread over the tile; it stores the 5000 × 128 result as block t of the output. Entry
  (p, q) of that tile is max (x (5000 t + p, q) + row (0, q), 0): it reads one entry of the node array and one of the bias
  row. The whole-array operation spreads the bias VECTOR first to one row and then down all 100000 rows, adds, and takes
  the maximum with the zero word broadcast to the array: at (a, q) it is max (x (a, q) + b q, 0). The bias row the tiles
  read is the bias vector reshaped to one row, whose entry (0, q) is b q. So block t of the whole-array value is what
  point t stores, and the 20 blocks tile the 100000 rows.
-/
import proofs.«143151_j62251255988834_1_alg».proof.Proof.Gen.KernelIdeal.Frame
import proofs.«143151_j62251255988834_1_alg».proof.Proof.GcnSpec
import proofs.«143151_j62251255988834_1_alg».proof.Proof.LibGraphLayer
import Idealize.ShloMosaic.Lib.Pipeline.Value
import Idealize.ShloMosaic.Lib.ValueLayout

set_option maxRecDepth 16384

noncomputable section

namespace Cert.KernelIdeal.Tiles

open Cert.KernelIdeal Cert.KernelIdeal.Gen Idealize.ShloMosaic Idealize.ShloMosaic.TcCoe Idealize.ShloMosaic.ValueIdx
open Idealize.ShloMosaic.Pipeline (Dat)

theorem zero_offsets1 : (![0, 0] : Fin 2 → Nat) = fun _ => 0 := funext fun a => by fin_cases a <;> rfl

/-- Entry (p, q) of the tile's value: the tile's entry plus the bias row's entry of the same column, then the maximum
    with zero. -/
theorem biasReluTile1_apply (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) Cert.GraphLayer.zeroWord := by
  unfold k1_pay1
  refine (congrFun (Cert.GraphLayer.tile_ramp (M := 5000) (K := 128) _) (ix2 p q)).trans ?_
  refine (Cert.GraphLayer.ramp_apply _ _).trans ?_
  refine congrArg (max · Cert.GraphLayer.zeroWord) ?_
  refine (addf_apply _ _ _).trans ?_
  refine congrArg₂ (· + ·) ?_ ?_
  · exact congrFun (shapeCast_self x0 shapeCasts_S5000x128_S5000x128) (ix2 p q)
  · refine (broadcastTo_1b_ab_apply _ broadcasts_S1x128_S5000x128 p q).trans ?_
    exact congrFun (shapeCast_self x1 shapeCasts_S1x128_S1x128) (ix2 (0 : Fin 1) q)

/-- Entry (a, q) of the whole-array value: the array's entry plus the bias vector's entry q, then the maximum with
    zero. -/
theorem biasRelu1_apply (X : FVec Ideal S100000x128 .f32) (b : FVec Ideal S128 .f32) (a : Fin 100000) (q : Fin 128) :
    Cert.Gcn.biasRelu X b (ix2 a q) = max (X (ix2 a q) + b (ix1 q)) Cert.GraphLayer.zeroWord := by
  unfold Cert.Gcn.biasRelu
  refine (congrFun (Cert.GraphLayer.host_ramp (M := 100000) (K := 128) Cert.ReferenceIdeal.Gen.bcast_S_S100000x128 _) (ix2 a q)).trans ?_
  refine (Cert.GraphLayer.ramp_apply _ _).trans ?_
  refine congrArg (max · Cert.GraphLayer.zeroWord) ?_
  refine (addf_apply _ _ _).trans ?_
  refine congrArg (X (ix2 a q) + ·) ?_
  refine (Cert.GraphLayer.broadcastInDim_1b_ab_apply _ Cert.ReferenceIdeal.Gen.bcast_S1x128_S100000x128_0_1 a q).trans ?_
  exact Cert.GraphLayer.broadcastInDim_b_1b_apply b Cert.ReferenceIdeal.Gen.bcast_S128_S1x128_1 (0 : Fin 1) q

/-- Entry j of the tile's value is entry i of the whole-array value, when the tile's entry j is the array's entry i, the
    tile's bias row is the bias vector reshaped to one row, and the columns agree. -/
theorem biasReluTile1_at (X : FVec Ideal S100000x128 .f32) (b : FVec Ideal S128 .f32)
    (x0 : Vec Ideal S5000x128 .f32) (x1 : Vec Ideal S1x128 .f32) (j : S5000x128.Idx) (i : S100000x128.Idx)
    (hx : x0 j = X i) (hb : x1 = shapeCast S1x128 b shapeCasts_S128_S1x128) (hq : (j 1).val = (i 1).val) :
    k1_pay1 (F := Ideal) x0 x1 j = Cert.Gcn.biasRelu X b i := by
  subst hb
  obtain ⟨p, q, rfl⟩ : ∃ (p : Fin 5000) (q : Fin 128), j = ix2 p q := ⟨j 0, j 1, eq_ix2 j⟩
  obtain ⟨a, r, rfl⟩ : ∃ (a : Fin 100000) (r : Fin 128), i = ix2 a r := ⟨i 0, i 1, eq_ix2 i⟩
  have hqr : q = r := Fin.ext hq
  subst hqr
  rw [biasReluTile1_apply, biasRelu1_apply, hx, shapeCast_a_1a_apply b shapeCasts_S128_S1x128 (0 : Fin 1) q]

section
variable (V : (c : Dev nD) → (b : Ref sig .tc) → Buf (Elt Ideal) ((c : Thread nD τ).loc b))

/-- The printed block index maps over the 20 points: the node rows' block moves with the result's, along rows only; the
    bias row's block stays. -/
theorem blocks1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 19 :=
  (by decide +kernel : ∀ t : Fin grid1.N, _)

/-- Each of the 20 row blocks is some point's. -/
theorem blocks1_onto : ∀ q0 : Fin 20, ∃ t : Fin cfg1.N, win1_2.index t = ![q0.val, 0] :=
  (by decide +kernel : ∀ q0 : Fin 20, ∃ t : Fin grid1.N, win1_2.index t = ![q0.val, 0])

/-- What point t writes back is block t of the whole-array value. -/
theorem flushed1 (c : Dev nD) (b : FVec Ideal S128 .f32) (hB : V c main_v49 = shapeCast S1x128 b shapeCasts_S128_S1x128)
    (t : Fin cfg1.N) :
    (dat1 V c).flushed 2 t = ((cfg1.win 2).blk t).view.read (Elt Ideal) (Cert.Gcn.biasRelu (V c main_v48) b) := by
  show (cfg1.win 2).cut (grid1.coords t) ((dat1 V c).after 2 t) = _
  rw [after1_2]
  unfold out1_2
  rw [View.canon_unit_zero zero_offsets1]
  simp only [View.ld_unit_zero (S := S5000x128) zero_offsets1, View.ld_unit_zero (S := S1x128) zero_offsets1]
  obtain ⟨e0, e1, e2, e3, e4, e5⟩ := blocks1 t
  funext j
  refine biasReluTile1_at (V c main_v48) b (iblk1 V c 0 t) (iblk1 V c 1 t) j (((cfg1.win 2).blk t).view.emb j) ?_ ?_ ?_
  · show V c main_v48 (((cfg1.win 0).blk t).view.emb j) = V c main_v48 (((cfg1.win 2).blk t).view.emb j)
    refine congrArg (V c main_v48) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · refine Eq.trans ?_ hB
    funext y
    show V c main_v49 (((cfg1.win 1).blk t).view.emb y) = V c main_v49 y
    refine congrArg (V c main_v49) (funext fun a => Fin.ext ?_)
    match a with
    | ⟨0, _⟩ => show win1_1.index t (0 : Fin 2) * 1 + 1 * (y 0).val = (y 0).val; omega
    | ⟨1, _⟩ => show win1_1.index t (1 : Fin 2) * 128 + 1 * (y 1).val = (y 1).val; omega
  · show (j 1).val = win1_2.index t (1 : Fin 2) * 128 + 1 * (j 1).val; omega

/-- An index of the result array is in point t's block iff each coordinate is in the block's range. -/
theorem mem_block1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v50).slice (win1_2.rect t)).set ↔ _
  rw [View.set_slice_whole, Rect.mem_set_unit]
  exact Iff.rfl

/-- Row r lies in block r / 5000. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := blocks1_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region the result array is the whole-array value of the arrays the region found, when the bias row it found
    is the bias vector reshaped to one row. -/
theorem biasRelu1 (c : Dev nD) (b : FVec Ideal S128 .f32) (hB : V c main_v49 = shapeCast S1x128 b shapeCasts_S128_S1x128) :
    (dat1 V c).arrAt 2 cfg1.N = Cert.Gcn.biasRelu (V c main_v48) b :=
  (dat1 V c).arrAt_eq_of_cover 2 _ (fun t _ => flushed1 V c b hB t) cover1

end

end Cert.KernelIdeal.Tiles

end
-- ==== Proof.TileBias3.lean ====
/-
  A bias row added to every node row and the maximum with zero, computed tile by tile, is the whole-array operation.

  The 100000 node rows are cut into 20 blocks of 5000 rows. At block t the body loads rows 5000 t … 5000 t + 4999 of the
  node array and the whole bias row (one row of 128 entries), spreads the bias row down the tile, adds, and takes the
  maximum with the word of +0.0 spread over the tile; it stores the 5000 × 128 result as block t of the output. Entry
  (p, q) of that tile is max (x (5000 t + p, q) + row (0, q), 0): it reads one entry of the node array and one of the bias
  row. The whole-array operation spreads the bias VECTOR first to one row and then down all 100000 rows, adds, and takes
  the maximum with the zero word broadcast to the array: at (a, q) it is max (x (a, q) + b q, 0). The bias row the tiles
  read is the bias vector reshaped to one row, whose entry (0, q) is b q. So block t of the whole-array value is what
  point t stores, and the 20 blocks tile the 100000 rows.
-/
import proofs.«143151_j62251255988834_1_alg».proof.Proof.Gen.KernelIdeal.Frame
import proofs.«143151_j62251255988834_1_alg».proof.Proof.GcnSpec
import proofs.«143151_j62251255988834_1_alg».proof.Proof.LibGraphLayer
import Idealize.ShloMosaic.Lib.Pipeline.Value
import Idealize.ShloMosaic.Lib.ValueLayout

set_option maxRecDepth 16384

noncomputable section

namespace Cert.KernelIdeal.Tiles

open Cert.KernelIdeal Cert.KernelIdeal.Gen Idealize.ShloMosaic Idealize.ShloMosaic.TcCoe Idealize.ShloMosaic.ValueIdx
open Idealize.ShloMosaic.Pipeline (Dat)

theorem zero_offsets3 : (![0, 0] : Fin 2 → Nat) = fun _ => 0 := funext fun a => by fin_cases a <;> rfl

/-- Entry (p, q) of the tile's value: the tile's entry plus the bias row's entry of the same column, then the maximum
    with zero. -/
theorem biasReluTile3_apply (x0 : Vec Ideal S5000x128 .f32) (x1 : Vec Ideal S1x128 .f32) (p : Fin 5000) (q : Fin 128) :
    k3_pay1 (F := Ideal) x0 x1 (ix2 p q) = max (x0 (ix2 p q) + x1 (ix2 (0 : Fin 1) q)) Cert.GraphLayer.zeroWord := by
  unfold k3_pay1
  refine (congrFun (Cert.GraphLayer.tile_ramp (M := 5000) (K := 128) _) (ix2 p q)).trans ?_
  refine (Cert.GraphLayer.ramp_apply _ _).trans ?_
  refine congrArg (max · Cert.GraphLayer.zeroWord) ?_
  refine (addf_apply _ _ _).trans ?_
  refine congrArg₂ (· + ·) ?_ ?_
  · exact congrFun (shapeCast_self x0 shapeCasts_S5000x128_S5000x128) (ix2 p q)
  · refine (broadcastTo_1b_ab_apply _ broadcasts_S1x128_S5000x128 p q).trans ?_
    exact congrFun (shapeCast_self x1 shapeCasts_S1x128_S1x128) (ix2 (0 : Fin 1) q)

/-- Entry (a, q) of the whole-array value: the array's entry plus the bias vector's entry q, then the maximum with
    zero. -/
theorem biasRelu3_apply (X : FVec Ideal S100000x128 .f32) (b : FVec Ideal S128 .f32) (a : Fin 100000) (q : Fin 128) :
    Cert.Gcn.biasRelu X b (ix2 a q) = max (X (ix2 a q) + b (ix1 q)) Cert.GraphLayer.zeroWord := by
  unfold Cert.Gcn.biasRelu
  refine (congrFun (Cert.GraphLayer.host_ramp (M := 100000) (K := 128) Cert.ReferenceIdeal.Gen.bcast_S_S100000x128 _) (ix2 a q)).trans ?_
  refine (Cert.GraphLayer.ramp_apply _ _).trans ?_
  refine congrArg (max · Cert.GraphLayer.zeroWord) ?_
  refine (addf_apply _ _ _).trans ?_
  refine congrArg (X (ix2 a q) + ·) ?_
  refine (Cert.GraphLayer.broadcastInDim_1b_ab_apply _ Cert.ReferenceIdeal.Gen.bcast_S1x128_S100000x128_0_1 a q).trans ?_
  exact Cert.GraphLayer.broadcastInDim_b_1b_apply b Cert.ReferenceIdeal.Gen.bcast_S128_S1x128_1 (0 : Fin 1) q

/-- Entry j of the tile's value is entry i of the whole-array value, when the tile's entry j is the array's entry i, the
    tile's bias row is the bias vector reshaped to one row, and the columns agree. -/
theorem biasReluTile3_at (X : FVec Ideal S100000x128 .f32) (b : FVec Ideal S128 .f32)
    (x0 : Vec Ideal S5000x128 .f32) (x1 : Vec Ideal S1x128 .f32) (j : S5000x128.Idx) (i : S100000x128.Idx)
    (hx : x0 j = X i) (hb : x1 = shapeCast S1x128 b shapeCasts_S128_S1x128) (hq : (j 1).val = (i 1).val) :
    k3_pay1 (F := Ideal) x0 x1 j = Cert.Gcn.biasRelu X b i := by
  subst hb
  obtain ⟨p, q, rfl⟩ : ∃ (p : Fin 5000) (q : Fin 128), j = ix2 p q := ⟨j 0, j 1, eq_ix2 j⟩
  obtain ⟨a, r, rfl⟩ : ∃ (a : Fin 100000) (r : Fin 128), i = ix2 a r := ⟨i 0, i 1, eq_ix2 i⟩
  have hqr : q = r := Fin.ext hq
  subst hqr
  rw [biasReluTile3_apply, biasRelu3_apply, hx, shapeCast_a_1a_apply b shapeCasts_S128_S1x128 (0 : Fin 1) q]

section
variable (V : (c : Dev nD) → (b : Ref sig .tc) → Buf (Elt Ideal) ((c : Thread nD τ).loc b))

/-- The printed block index maps over the 20 points: the node rows' block moves with the result's, along rows only; the
    bias row's block stays. -/
theorem blocks3 : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 19 :=
  (by decide +kernel : ∀ t : Fin grid3.N, _)

/-- Each of the 20 row blocks is some point's. -/
theorem blocks3_onto : ∀ q0 : Fin 20, ∃ t : Fin cfg3.N, win3_2.index t = ![q0.val, 0] :=
  (by decide +kernel : ∀ q0 : Fin 20, ∃ t : Fin grid3.N, win3_2.index t = ![q0.val, 0])

/-- What point t writes back is block t of the whole-array value. -/
theorem flushed3 (c : Dev nD) (b : FVec Ideal S128 .f32) (hB : V c main_v65 = shapeCast S1x128 b shapeCasts_S128_S1x128)
    (t : Fin cfg3.N) :
    (dat3 V c).flushed 2 t = ((cfg3.win 2).blk t).view.read (Elt Ideal) (Cert.Gcn.biasRelu (V c main_v64) b) := by
  show (cfg3.win 2).cut (grid3.coords t) ((dat3 V c).after 2 t) = _
  rw [after3_2]
  unfold out3_2
  rw [View.canon_unit_zero zero_offsets3]
  simp only [View.ld_unit_zero (S := S5000x128) zero_offsets3, View.ld_unit_zero (S := S1x128) zero_offsets3]
  obtain ⟨e0, e1, e2, e3, e4, e5⟩ := blocks3 t
  funext j
  refine biasReluTile3_at (V c main_v64) b (iblk3 V c 0 t) (iblk3 V c 1 t) j (((cfg3.win 2).blk t).view.emb j) ?_ ?_ ?_
  · show V c main_v64 (((cfg3.win 0).blk t).view.emb j) = V c main_v64 (((cfg3.win 2).blk t).view.emb j)
    refine congrArg (V c main_v64) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  · refine Eq.trans ?_ hB
    funext y
    show V c main_v65 (((cfg3.win 1).blk t).view.emb y) = V c main_v65 y
    refine congrArg (V c main_v65) (funext fun a => Fin.ext ?_)
    match a with
    | ⟨0, _⟩ => show win3_1.index t (0 : Fin 2) * 1 + 1 * (y 0).val = (y 0).val; omega
    | ⟨1, _⟩ => show win3_1.index t (1 : Fin 2) * 128 + 1 * (y 1).val = (y 1).val; omega
  · show (j 1).val = win3_2.index t (1 : Fin 2) * 128 + 1 * (j 1).val; omega

/-- An index of the result array is in point t's block iff each coordinate is in the block's range. -/
theorem mem_block3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v66).slice (win3_2.rect t)).set ↔ _
  rw [View.set_slice_whole, Rect.mem_set_unit]
  exact Iff.rfl

/-- Row r lies in block r / 5000. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := blocks3_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region the result array is the whole-array value of the arrays the region found, when the bias row it found
    is the bias vector reshaped to one row. -/
theorem biasRelu3 (c : Dev nD) (b : FVec Ideal S128 .f32) (hB : V c main_v65 = shapeCast S1x128 b shapeCasts_S128_S1x128) :
    (dat3 V c).arrAt 2 cfg3.N = Cert.Gcn.biasRelu (V c main_v64) b :=
  (dat3 V c).arrAt_eq_of_cover 2 _ (fun t _ => flushed3 V c b hB t) cover3

end

end Cert.KernelIdeal.Tiles

end
-- ==== Proof.LibReduceRead.lean ====
/-
  Reductions of a matrix along one axis, and the column forms of reshape and broadcast, read at an entry.

  For a matrix src of extents [a, b]:

    sum over axis 0, at k          Σ_i src (i, k)                       (a column sum)
    sum over axis 1, at r          Σ_j src (r, j)                       (a row sum)
    maximum over axis 1, at r      sup_j src (r, j)                     (a row maximum: the fold of max from −∞,
                                                                          and −∞ is the bottom of the extended reals,
                                                                          so the fold is the finite supremum)

  The index of the matrix that lies over a reduced index with a given coordinate on the dropped axis is the pair of
  the two coordinates, in the matrix's order. A vector of extent a reshaped to the column [a, 1] reads its own entry,
  and a column [a, 1] broadcast to [a, b] reads the column's entry of the same row.
-/
import Idealize.ShloMosaic.PureOps.Ideal.Laws
import Idealize.ShloMosaic.Lib.ValueIdx
import Idealize.ShloMosaic.Lib.Pipeline.Value
import Idealize.ShloMosaic.Lib.ValueLayout

noncomputable section

namespace Cert.Pay

open Idealize.ShloMosaic Idealize.ShloMosaic.ValueIdx

/-- The float word 0xFF800000 (−∞) denotes the bottom of the extended reals. -/
theorem ofBits_neg_inf : Ideal.ofBits .f32 0xFF800000#32 = ⊥ := by
  simp [Ideal.ofBits, Ideal.ieee]

/-- Over the reduced index k of a reduction along axis 0, the matrix index with coordinate i on that axis is (i, k). -/
theorem lift_axis0 {a b : ℕ} (h : (⟨2, ![a, b]⟩ : Shape).Reduces [0] ⟨1, ![b]⟩) (k : Fin b) (i : Fin a) :
    h.lift (ix1 k) i = ix2 i k :=
  funext fun c => Fin.ext (by match c with | ⟨0, _⟩ => rfl | ⟨1, _⟩ => rfl)

/-- Over the reduced index r of a reduction along axis 1, the matrix index with coordinate j on that axis is (r, j). -/
theorem lift_axis1 {a b : ℕ} (h : (⟨2, ![a, b]⟩ : Shape).Reduces [1] ⟨1, ![a]⟩) (r : Fin a) (j : Fin b) :
    h.lift (ix1 r) j = ix2 r j :=
  funext fun c => Fin.ext (by match c with | ⟨0, _⟩ => rfl | ⟨1, _⟩ => rfl)

/-- A sum over the rows of a matrix, at column k. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (k : Fin b) :
    multiReduction (F := Ideal) .add [0] ⟨1, ![b]⟩ src 0x00000000#32 h hφ hacc (ix1 k) = ∑ i : Fin a, src (ix2 i k) :=
  (Ideal.multiReduction_add_single src 0x00000000#32 h hφ hacc (ix1 k)).trans
    (Finset.sum_congr rfl fun i _ => congrArg src (lift_axis0 h k i))

/-- A sum along the rows of a matrix, at row r. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ src 0x00000000#32 h hφ hacc (ix1 r) = ∑ j : Fin b, src (ix2 r j) :=
  (Ideal.multiReduction_add_single src 0x00000000#32 h hφ hacc (ix1 r)).trans
    (Finset.sum_congr rfl fun j _ => congrArg src (lift_axis1 h r j))

/-- The fold of max from the bottom over a finite index set is the finite supremum. -/
theorem fold_max_bot_eq_sup {ι : Type} [Fintype ι] (g : ι → EReal) :
    (Finset.univ : Finset ι).fold max ⊥ g = Finset.univ.sup g := rfl

/-- A maximum along the rows of a matrix from −∞, at row r. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (r : Fin a) :
    multiReduction (F := Ideal) .maximumf [1] ⟨1, ![a]⟩ src 0xFF800000#32 h hφ hacc (ix1 r)
      = Finset.univ.sup fun j : Fin b => src (ix2 r j) := by
  have e : (fun j : Fin b => src (h.lift (ix1 r) j)) = fun j : Fin b => src (ix2 r j) :=
    funext fun j => congrArg src (lift_axis1 h r j)
  exact (Ideal.multiReduction_maximumf_single src 0xFF800000#32 h hφ hacc (ix1 r)).trans
    ((congrArg₂ (fun z (g : Fin b → EReal) => (Finset.univ : Finset (Fin b)).fold max z g) ofBits_neg_inf e).trans
      (fold_max_bot_eq_sup _))

variable {α : Type}

/-- A vector of extent a reshaped to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Pay

end
-- ==== Proof.TileSoftmax5.lean ====
/-
  The bias row added to every 40-wide node row and the logarithm of the softmax along each row, computed tile by tile,
  is the whole-array operation.

  The 100000 node rows are cut into 20 blocks of 5000 rows. At block t the body loads rows 5000 t … 5000 t + 4999 of the
  node array and the whole bias row (one row of 40 entries), and adds the bias row to every row of the tile: z. Then,
  row by row: the row's maximum m, folded from the word of −∞; the row minus m; its exponentials; their sum s, from the
  zero word; and the stored value (z − m) − log s. Entry (p, q) of the tile depends on the 40 entries of row p of z only:

      (z (p, q) − sup_k z (p, k)) − log (Σ_k exp (z (p, k) − sup_k z (p, k))),

  the row function `rowLogSoftmax5` at column q. The whole-array operation adds the bias VECTOR, spread first to one row
  and then down all 100000 rows, and does the same per row, with two differences in spelling: its row maximum is taken
  once more with −∞ (max ⊥ x = x: −∞ is the bottom of the extended reals), and its row sum starts from the zero word
  (0 + x = x). The bias row the tiles read is the bias vector reshaped to one row, whose entry (0, q) is b q; and row p
  of block t is row 5000 t + p of the array. So block t of the whole-array value is what point t stores, and the 20
  blocks tile the 100000 rows.
-/
import proofs.«143151_j62251255988834_1_alg».proof.Proof.Gen.KernelIdeal.Frame
import proofs.«143151_j62251255988834_1_alg».proof.Proof.GcnSpec
import proofs.«143151_j62251255988834_1_alg».proof.Proof.LibGraphLayer
import proofs.«143151_j62251255988834_1_alg».proof.Proof.LibReduceRead
import Idealize.ShloMosaic.Lib.Pipeline.Value
import Idealize.ShloMosaic.Lib.ValueLayout
import Idealize.ShloMosaic.Lib.IdealHost

set_option maxRecDepth 16384

noncomputable section

namespace Cert.KernelIdeal.Tiles

open Cert.KernelIdeal Cert.KernelIdeal.Gen Idealize.ShloMosaic Idealize.ShloMosaic.TcCoe Idealize.ShloMosaic.ValueIdx
open Idealize.ShloMosaic.Pipeline (Dat)

theorem zero_offsets5 : (![0, 0] : Fin 2 → Nat) = fun _ => 0 := funext fun a => by fin_cases a <;> rfl

/-! ## One row -/

/-- The logarithm of the softmax of one row z of 40 extended reals, at column q: the entry minus the row's supremum,
    minus the logarithm of the sum of the exponentials of the row minus its supremum. -/
def rowLogSoftmax5 (z : Fin 40 → EReal) (q : Fin 40) : EReal :=
  (z q - Finset.univ.sup z) - Ideal.log (∑ k : Fin 40, Ideal.exp (z k - Finset.univ.sup z))

/-! ## The tile's spelling -/

/-- The tile with the bias row added to every row. -/
abbrev biased5 (x0 : Vec Ideal S5000x40 .f32) (x1 : Vec Ideal S1x40 .f32) : FVec Ideal S5000x40 .f32 :=
  addf (F := Ideal) (shapeCast S5000x40 x0 shapeCasts_S5000x40_S5000x40)
    (broadcastTo S5000x40 (shapeCast S1x40 x1 shapeCasts_S1x40_S1x40) broadcasts_S1x40_S5000x40)

/-- Entry (p, k) of the biased tile: the tile's entry plus the bias row's entry of the same column. -/
theorem biased5_apply (x0 : Vec Ideal S5000x40 .f32) (x1 : Vec Ideal S1x40 .f32) (p : Fin 5000) (k : Fin 40) :
    biased5 x0 x1 (ix2 p k) = x0 (ix2 p k) + x1 (ix2 (0 : Fin 1) k) := by
  refine (addf_apply _ _ _).trans ?_
  refine congrArg₂ (· + ·) ?_ ?_
  · exact congrFun (shapeCast_self x0 shapeCasts_S5000x40_S5000x40) (ix2 p k)
  · refine (broadcastTo_1b_ab_apply _ broadcasts_S1x40_S5000x40 p k).trans ?_
    exact congrFun (shapeCast_self x1 shapeCasts_S1x40_S1x40) (ix2 (0 : Fin 1) k)

/-- A tile's row maxima from −∞, made a column and spread along the rows, read at (p, k): the supremum of row p. -/
theorem rowMaxTile5_apply (v : FVec Ideal S5000x40 .f32) (p : Fin 5000) (k : Fin 40) :
    broadcastTo S5000x40 (shapeCast S5000x1 (multiReduction (F := Ideal) .maximumf [1] S5000 v 0xFF800000#32 reduces_S5000x40_S5000 (.inl rfl) rfl)
      shapeCasts_S5000_S5000x1) broadcasts_S5000x1_S5000x40 (ix2 p k) = Finset.univ.sup fun j : Fin 40 => v (ix2 p j) :=
  (Cert.Pay.broadcastTo_a1_ab_apply _ broadcasts_S5000x1_S5000x40 p k).trans
    ((Cert.Pay.shapeCast_a_a1_apply _ shapeCasts_S5000_S5000x1 p (0 : Fin 1)).trans
      (Cert.Pay.rowMax_apply v reduces_S5000x40_S5000 (.inl rfl) rfl p))

/-- A tile minus its row maxima, at (p, k): the entry minus the supremum of row p. -/
theorem shiftedTile5_apply (v : FVec Ideal S5000x40 .f32) (p : Fin 5000) (k : Fin 40) :
    subf (F := Ideal) v (broadcastTo S5000x40 (shapeCast S5000x1 (multiReduction (F := Ideal) .maximumf [1] S5000 v 0xFF800000#32 reduces_S5000x40_S5000 (.inl rfl) rfl)
      shapeCasts_S5000_S5000x1) broadcasts_S5000x1_S5000x40) (ix2 p k) = v (ix2 p k) - Finset.univ.sup fun j : Fin 40 => v (ix2 p j) :=
  (subf_apply _ _ (ix2 p k)).trans (congrArg (v (ix2 p k) - ·) (rowMaxTile5_apply v p k))

/-- Entry (p, q) of the tile's value is the row function of row p of the biased tile, at column q. -/
theorem logSoftmaxTile5_apply (x0 : Vec Ideal S5000x40 .f32) (x1 : Vec Ideal S1x40 .f32) (p : Fin 5000) (q : Fin 40) :
    k5_pay1 (F := Ideal) x0 x1 (ix2 p q) = rowLogSoftmax5 (fun k => biased5 x0 x1 (ix2 p k)) q := by
  unfold k5_pay1
  show _ = (biased5 x0 x1 (ix2 p q) - Finset.univ.sup fun j : Fin 40 => biased5 x0 x1 (ix2 p j))
    - Ideal.log (∑ k : Fin 40, Ideal.exp (biased5 x0 x1 (ix2 p k) - Finset.univ.sup fun j : Fin 40 => biased5 x0 x1 (ix2 p j)))
  refine (subf_apply _ _ (ix2 p q)).trans ?_
  refine congrArg₂ (· - ·) (shiftedTile5_apply (biased5 x0 x1) p q) ?_
  refine (Cert.Pay.broadcastTo_a1_ab_apply _ broadcasts_S5000x1_S5000x40 p q).trans ?_
  refine congrArg Ideal.log ?_
  refine (Cert.Pay.shapeCast_a_a1_apply _ shapeCasts_S5000_S5000x1 p (0 : Fin 1)).trans ?_
  refine (Cert.Pay.rowSum_apply _ reduces_S5000x40_S5000 (.inl rfl) rfl p).trans ?_
  exact Finset.sum_congr rfl fun k _ => congrArg Ideal.exp (shiftedTile5_apply (biased5 x0 x1) p k)

/-! ## The whole array's spelling -/

/-- The host's logarithm of an array, at an index, is the logarithm of the entry. -/
theorem hostLog5_apply {s : Shape} (v : FVec Ideal s .f32) (i : s.Idx) : Host.log (F := Ideal) v i = Ideal.log (v i) := rfl

/-- The host's exponential of an array, at an index, is the exponential of the entry. -/
theorem hostExp5_apply {s : Shape} (v : FVec Ideal s .f32) (i : s.Idx) : Host.exp (F := Ideal) v i = Ideal.exp (v i) := rfl

/-- The index of a 100000 × 40 array over a reduced row index, by the coordinate along the row. -/
theorem reduces5 : (⟨2, ![100000, 40]⟩ : Shape).Reduces [1] ⟨1, ![100000]⟩ := by decide

/-- Entry (a, k) of the biased array: the array's entry plus the bias vector's entry k. -/
theorem addBias5_apply (X : FVec Ideal S100000x40 .f32) (b : FVec Ideal S40 .f32) (a : Fin 100000) (k : Fin 40) :
    Cert.Gcn.addBias40 X b (ix2 a k) = X (ix2 a k) + b (ix1 k) := by
  unfold Cert.Gcn.addBias40
  refine (addf_apply _ _ _).trans ?_
  refine congrArg (X (ix2 a k) + ·) ?_
  refine (Cert.GraphLayer.broadcastInDim_1b_ab_apply _ Cert.ReferenceIdeal.Gen.bcast_S1x40_S100000x40_0_1 a k).trans ?_
  exact Cert.GraphLayer.broadcastInDim_b_1b_apply b Cert.ReferenceIdeal.Gen.bcast_S40_S1x40_1 (0 : Fin 1) k

/-- The whole array's row maximum at row a: the supremum of the row (the fold of the maximum from −∞ is the finite
    supremum, and the maximum of −∞ with it changes nothing). -/
theorem rowMax5_apply (Z : FVec Ideal S100000x40 .f32) (a : Fin 100000) :
    Cert.Gcn.rowMax Z (ix1 a) = Finset.univ.sup fun j : Fin 40 => Z (ix2 a j) := by
  have e : (Z ∘ reduces5.lift (ix1 a)) = fun j : Fin 40 => Z (ix2 a j) :=
    funext fun j => congrArg Z (Cert.Pay.lift_axis1 reduces5 a j)
  have h1 : Host.reduce (FloatOps.maximumf (F := Ideal)) Z (constant (F := Ideal) Cert.ReferenceIdeal.S_ .f32 0xFF800000#32)
      Cert.ReferenceIdeal.Gen.reducesTo_S100000x40_S100000_d1 Cert.ReferenceIdeal.Gen.h_S_ (ix1 a)
        = Finset.univ.sup fun j : Fin 40 => Z (ix2 a j) :=
    (Host.reduce_eq_fold_single (FloatOps.maximumf (F := Ideal)) Z _ Cert.ReferenceIdeal.Gen.reducesTo_S100000x40_S100000_d1
        reduces5 Cert.ReferenceIdeal.Gen.h_S_ (ix1 a)).trans
      ((congrArg₂ (fun z (g : Fin 40 → EReal) => (Finset.univ : Finset (Fin 40)).fold max z g) Cert.Pay.ofBits_neg_inf e).trans
        (Cert.Pay.fold_max_bot_eq_sup _))
  unfold Cert.Gcn.rowMax
  refine (maximumf_apply _ _ (ix1 a)).trans ?_
  refine (congrArg₂ max ?_ h1).trans (max_bot_left _)
  exact (broadcastInDim_scalar_apply Cert.ReferenceIdeal.Gen.bcast_S_S100000 _ (ix1 a)).trans Cert.Pay.ofBits_neg_inf

/-- The whole array minus its row maxima, at (a, k): the entry minus the supremum of row a. -/
theorem shifted5_apply (Z : FVec Ideal S100000x40 .f32) (a : Fin 100000) (k : Fin 40) :
    Cert.Gcn.shifted Z (ix2 a k) = Z (ix2 a k) - Finset.univ.sup fun j : Fin 40 => Z (ix2 a j) := by
  unfold Cert.Gcn.shifted Cert.Gcn.alongRows
  refine (subf_apply _ _ (ix2 a k)).trans ?_
  refine congrArg (Z (ix2 a k) - ·) ?_
  refine (Cert.GraphLayer.broadcastInDim_a1_ab_apply _ Cert.ReferenceIdeal.Gen.bcast_S100000x1_S100000x40_0_1 a k).trans ?_
  refine (Cert.GraphLayer.broadcastInDim_a_a1_apply _ Cert.ReferenceIdeal.Gen.bcast_S100000_S100000x1_0 a (0 : Fin 1)).trans ?_
  exact rowMax5_apply Z a

/-- Entry (a, q) of the whole array's value is the row function of row a, at column q (the row sum from the zero word
    is the row sum). -/
theorem logSoftmax5_apply (Z : FVec Ideal S100000x40 .f32) (a : Fin 100000) (q : Fin 40) :
    Cert.Gcn.logSoftmax Z (ix2 a q) = rowLogSoftmax5 (fun k => Z (ix2 a k)) q := by
  unfold Cert.Gcn.logSoftmax Cert.Gcn.alongRows
  show _ = (Z (ix2 a q) - Finset.univ.sup fun j : Fin 40 => Z (ix2 a j))
    - Ideal.log (∑ k : Fin 40, Ideal.exp (Z (ix2 a k) - Finset.univ.sup fun j : Fin 40 => Z (ix2 a j)))
  refine (subf_apply _ _ (ix2 a q)).trans ?_
  refine congrArg₂ (· - ·) (shifted5_apply Z a q) ?_
  refine (Cert.GraphLayer.broadcastInDim_a1_ab_apply _ Cert.ReferenceIdeal.Gen.bcast_S100000x1_S100000x40_0_1 a q).trans ?_
  refine (hostLog5_apply _ _).trans ?_
  refine congrArg Ideal.log ?_
  refine (Cert.GraphLayer.broadcastInDim_a_a1_apply _ Cert.ReferenceIdeal.Gen.bcast_S100000_S100000x1_0 a (0 : Fin 1)).trans ?_
  refine (hostReduceAdd_apply _ _ Cert.ReferenceIdeal.Gen.reducesTo_S100000x40_S100000_d1 Cert.ReferenceIdeal.Gen.h_S_ (ix1 a)).trans ?_
  refine (Ideal.hostReduceAdd_single Cert.ReferenceIdeal.Gen.reducesTo_S100000x40_S100000_d1 reduces5 _ _ (ix1 a)).trans ?_
  refine (congrArg₂ (· + ·) Ideal.ofBits_zero_f32 (Finset.sum_congr rfl fun k _ => ?_)).trans (zero_add _)
  refine (congrArg (Host.exp (F := Ideal) (Cert.Gcn.shifted Z)) (Cert.Pay.lift_axis1 reduces5 a k)).trans ?_
  refine (hostExp5_apply _ _).trans ?_
  exact congrArg Ideal.exp (shifted5_apply Z a k)

/-! ## A tile's entry is the whole array's -/

/-- Entry j of the tile's value is entry i of the whole-array value, when row j 0 of the tile is row i 0 of the array,
    the tile's bias row is the bias vector reshaped to one row, and the columns agree. -/
theorem logSoftmaxTile5_at (X : FVec Ideal S100000x40 .f32) (b : FVec Ideal S40 .f32)
    (x0 : Vec Ideal S5000x40 .f32) (x1 : Vec Ideal S1x40 .f32) (j : S5000x40.Idx) (i : S100000x40.Idx)
    (hx : ∀ k : Fin 40, x0 (ix2 (j 0) k) = X (ix2 (i 0) k)) (hb : x1 = shapeCast S1x40 b shapeCasts_S40_S1x40)
    (hq : (j 1).val = (i 1).val) :
    k5_pay1 (F := Ideal) x0 x1 j = Cert.Gcn.logSoftmax (Cert.Gcn.addBias40 X b) i := by
  subst hb
  obtain ⟨p, q, rfl⟩ : ∃ (p : Fin 5000) (q : Fin 40), j = ix2 p q := ⟨j 0, j 1, eq_ix2 j⟩
  obtain ⟨a, r, rfl⟩ : ∃ (a : Fin 100000) (r : Fin 40), i = ix2 a r := ⟨i 0, i 1, eq_ix2 i⟩
  have hqr : q = r := Fin.ext hq
  subst hqr
  have hx' : ∀ k : Fin 40, x0 (ix2 p k) = X (ix2 a k) := hx
  rw [logSoftmaxTile5_apply, logSoftmax5_apply]
  refine congrArg (fun z => rowLogSoftmax5 z q) (funext fun k => ?_)
  rw [biased5_apply, addBias5_apply, hx' k, shapeCast_a_1a_apply b shapeCasts_S40_S1x40 (0 : Fin 1) k]

section
variable (V : (c : Dev nD) → (b : Ref sig .tc) → Buf (Elt Ideal) ((c : Thread nD τ).loc b))

/-- The printed block index maps over the 20 points: the node rows' block moves with the result's, along rows only; the
    bias row's block stays. -/
theorem blocks5 : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (1 : Fin 2) = 0 ∧ win5_2.index t (0 : Fin 2) ≤ 19 :=
  (by decide +kernel : ∀ t : Fin grid5.N, _)

/-- Each of the 20 row blocks is some point's. -/
theorem blocks5_onto : ∀ q0 : Fin 20, ∃ t : Fin cfg5.N, win5_2.index t = ![q0.val, 0] :=
  (by decide +kernel : ∀ q0 : Fin 20, ∃ t : Fin grid5.N, win5_2.index t = ![q0.val, 0])

/-- What point t writes back is block t of the whole-array value. -/
theorem flushed5 (c : Dev nD) (b : FVec Ideal S40 .f32) (hB : V c main_v81 = shapeCast S1x40 b shapeCasts_S40_S1x40)
    (t : Fin cfg5.N) :
    (dat5 V c).flushed 2 t
      = ((cfg5.win 2).blk t).view.read (Elt Ideal) (Cert.Gcn.logSoftmax (Cert.Gcn.addBias40 (V c main_v80) b)) := by
  show (cfg5.win 2).cut (grid5.coords t) ((dat5 V c).after 2 t) = _
  rw [after5_2]
  unfold out5_2
  rw [View.canon_unit_zero zero_offsets5]
  simp only [View.ld_unit_zero (S := S5000x40) zero_offsets5, View.ld_unit_zero (S := S1x40) zero_offsets5]
  obtain ⟨e0, e1, e2, e3, e4, e5⟩ := blocks5 t
  funext j
  refine logSoftmaxTile5_at (V c main_v80) b (iblk5 V c 0 t) (iblk5 V c 1 t) j (((cfg5.win 2).blk t).view.emb j) (fun k => ?_) ?_ ?_
  · show V c main_v80 (((cfg5.win 0).blk t).view.emb (ix2 (j 0) k)) = V c main_v80 (ix2 ((((cfg5.win 2).blk t).view.emb j) 0) k)
    refine congrArg (V c main_v80) (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 40 + 1 * k.val = k.val; omega
  · refine Eq.trans ?_ hB
    funext y
    show V c main_v81 (((cfg5.win 1).blk t).view.emb y) = V c main_v81 y
    refine congrArg (V c main_v81) (funext fun a => Fin.ext ?_)
    match a with
    | ⟨0, _⟩ => show win5_1.index t (0 : Fin 2) * 1 + 1 * (y 0).val = (y 0).val; omega
    | ⟨1, _⟩ => show win5_1.index t (1 : Fin 2) * 40 + 1 * (y 1).val = (y 1).val; omega
  · show (j 1).val = win5_2.index t (1 : Fin 2) * 40 + 1 * (j 1).val; omega

/-- An index of the result array is in point t's block iff each coordinate is in the block's range. -/
theorem mem_block5 (t : Fin cfg5.N) (i : S100000x40.Idx) :
    i ∈ ((cfg5.win 2).blk t).view.set ↔ ∀ a : Fin 2, win5_2.index t a * S5000x40.size a ≤ (i a).val ∧ (i a).val < win5_2.index t a * S5000x40.size a + S5000x40.size a := by
  show i ∈ ((View.whole main_v82).slice (win5_2.rect t)).set ↔ _
  rw [View.set_slice_whole, Rect.mem_set_unit]
  exact Iff.rfl

/-- Row r lies in block r / 5000. -/
theorem cover5 (i : S100000x40.Idx) : ∃ t : Fin cfg5.N, (cfg5.win 2).flush t = true ∧ i ∈ ((cfg5.win 2).blk t).view.set := by
  have hi0 : (i 0).val < 100000 := (i 0).isLt
  have hi1 : (i 1).val < 40 := (i 1).isLt
  obtain ⟨t, ht⟩ := blocks5_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_block5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 40 ≤ (i 1).val ∧ (i 1).val < win5_2.index t (1 : Fin 2) * 40 + 40; omega

/-- After the region the result array is the whole-array value of the arrays the region found, when the bias row it found
    is the bias vector reshaped to one row. -/
theorem logSoftmax5 (c : Dev nD) (b : FVec Ideal S40 .f32) (hB : V c main_v81 = shapeCast S1x40 b shapeCasts_S40_S1x40) :
    (dat5 V c).arrAt 2 cfg5.N = Cert.Gcn.logSoftmax (Cert.Gcn.addBias40 (V c main_v80) b) :=
  (dat5 V c).arrAt_eq_of_cover 2 _ (fun t _ => flushed5 V c b hB t) cover5

end

end Cert.KernelIdeal.Tiles

end
-- ==== Proof.KernelChain.lean ====
/-
  The idealized kernel's result array, computed along the program, is the three-layer network of the specification.

  The program alternates stretches of whole-array operations with tiled regions. A stretch is read operation by
  operation: the value it writes into a buffer is the operations' composite of what it found in the buffers it reads, and a
  buffer it does not write keeps its contents. A region replaces its output array by the whole-array function its tiles
  compute (a matrix product, the bias row and the maximum with zero, or the bias row and the logarithm of the softmax) of
  its two input arrays, and leaves every other buffer alone. The first three stretches compute the edge bookkeeping: the
  source and target lists with the self loops appended, the degrees, their inverse square roots where positive, and the
  per-entry norms; these three arrays and the weight arrays are then carried unchanged through everything that follows,
  and each layer is: product, gather-scale-scatter along the lists, bias and activation.
-/
import proofs.«143151_j62251255988834_1_alg».proof.Proof.Gen.KernelIdeal.Frame
import proofs.«143151_j62251255988834_1_alg».proof.Proof.GcnSpec
import proofs.«143151_j62251255988834_1_alg».proof.Proof.TileDot0
import proofs.«143151_j62251255988834_1_alg».proof.Proof.TileDot2
import proofs.«143151_j62251255988834_1_alg».proof.Proof.TileDot4
import proofs.«143151_j62251255988834_1_alg».proof.Proof.TileBias1
import proofs.«143151_j62251255988834_1_alg».proof.Proof.TileBias3
import proofs.«143151_j62251255988834_1_alg».proof.Proof.TileSoftmax5
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.ShloMosaic.StableHlo

/-- A list of 1600000 edge ends followed by the 100000 nodes themselves. -/
def joinLoops (a : (⟨S1600000, .i32⟩ : BufTy).Contents (Elt Ideal)) (b : (⟨S100000, .i32⟩ : BufTy).Contents (Elt Ideal)) :
    (⟨S1700000, .i32⟩ : BufTy).Contents (Elt Ideal) :=
  concatenate S1700000 0 [⟨S1600000, a⟩, ⟨S100000, b⟩] concatenates_S1600000_S100000_S1700000_d0

/-- The joining of two lists, as a function of the two lists. -/
theorem join_eq : (fun (a : (⟨S1600000, .i32⟩ : BufTy).Contents (Elt Ideal)) (b : (⟨S100000, .i32⟩ : BufTy).Contents (Elt Ideal)) =>
    concatenate S1700000 0 [⟨S1600000, a⟩, ⟨S100000, b⟩] concatenates_S1600000_S100000_S1700000_d0) = joinLoops := rfl

/-! ## The stretches, from any contents -/

section Stretches

variable (Vv : Valuation τ sig (Elt Ideal))

/-- The sources: row 0 of the edge list, then every node. -/
theorem src_list : after (hostOps0 (F := Ideal)) Vv (Proc.devRef .tc main_v5) = Cert.Gcn.src (Vv (Proc.devRef .tc main_arg1)) := by
  simp only [hostOps0, join_eq]
  after_results_simp <;> rfl

/-- The targets: row 1 of the edge list, then every node. -/
theorem dst_list : after (hostOps0 (F := Ideal)) Vv (Proc.devRef .tc main_v6) = Cert.Gcn.dst (Vv (Proc.devRef .tc main_arg1)) := by
  simp only [hostOps0, join_eq]
  after_results_simp <;> rfl

/-- Where the degree is positive. -/
theorem deg_positive : after (hostOps0 (F := Ideal)) Vv (Proc.devRef .tc main_v17)
    = cmpf (F := Ideal) .ogt (Cert.Gcn.deg (Vv (Proc.devRef .tc main_arg1))) (broadcastInDim S100000 ![] bcast_S_S100000 (constant (F := Ideal) S_ .f32 0x00000000#32)) := by
  simp only [hostOps0, join_eq]
  after_results_simp <;> rfl

/-- The degree to the power -1/2. -/
theorem deg_rsqrt : after (hostOps0 (F := Ideal)) Vv (Proc.devRef .tc main_v18) = Host.rsqrt (F := Ideal) (Cert.Gcn.deg (Vv (Proc.devRef .tc main_arg1))) := by
  simp only [hostOps0, join_eq]
  after_results_simp <;> rfl

/-- The zero that stands where the degree is not positive. -/
theorem zero_word : after (hostOps0 (F := Ideal)) Vv (Proc.devRef .tc main_cst_3) = constant (F := Ideal) S_ .f32 0x00000000#32 := by
  after_results_simp <;> rfl

/-- The choice between the two, entry by entry. -/
theorem chosen : after (hostOps0_1 (F := Ideal)) Vv (Proc.devRef .tc main_v19)
    = select (Vv (Proc.devRef .tc main_v17)) (Vv (Proc.devRef .tc main_v18)) (broadcastInDim S100000 ![] bcast_S_S100000 (id (Vv (Proc.devRef .tc main_cst_3)))) := by
  after_results_simp <;> rfl

theorem chosen_keeps_src : after (hostOps0_1 (F := Ideal)) Vv (Proc.devRef .tc main_v5) = Vv (Proc.devRef .tc main_v5) := by after_results_simp
theorem chosen_keeps_dst : after (hostOps0_1 (F := Ideal)) Vv (Proc.devRef .tc main_v6) = Vv (Proc.devRef .tc main_v6) := by after_results_simp

/-- The norms: the inverse square roots gathered at the sources times those gathered at the targets. -/
theorem norms : after (hostOps0_2 (F := Ideal)) Vv (Proc.devRef .tc main_v34)
    = mulf (F := Ideal) (φ := .f32) (Host.gather gather_S100000_S1700000x1_S1700000_n_0_n_n_0_1_1 (Vv (Proc.devRef .tc main_v19)) (Cert.Gcn.wrap (Vv (Proc.devRef .tc main_v5))))
        (Host.gather gather_S100000_S1700000x1_S1700000_n_0_n_n_0_1_1 (Vv (Proc.devRef .tc main_v19)) (Cert.Gcn.wrap (Vv (Proc.devRef .tc main_v6)))) := by
  after_results_simp <;> rfl

theorem norms_keep_src : after (hostOps0_2 (F := Ideal)) Vv (Proc.devRef .tc main_v5) = Vv (Proc.devRef .tc main_v5) := by after_results_simp
theorem norms_keep_dst : after (hostOps0_2 (F := Ideal)) Vv (Proc.devRef .tc main_v6) = Vv (Proc.devRef .tc main_v6) := by after_results_simp

/-- The first propagation, and the first bias vector as a row. -/
theorem spread1 : after (hostOps1 (F := Ideal)) Vv (Proc.devRef .tc main_v48)
    = Cert.Gcn.aggRows128 (Vv (Proc.devRef .tc main_v5)) (Vv (Proc.devRef .tc main_v6)) (Vv (Proc.devRef .tc main_v34)) (Vv (Proc.devRef .tc main_v35)) := by
  after_results_simp <;> rfl
theorem row1 : after (hostOps1 (F := Ideal)) Vv (Proc.devRef .tc main_v49) = shapeCast S1x128 (Vv (Proc.devRef .tc main_arg3)) shapeCasts_S128_S1x128 := by
  after_results_simp <;> rfl

/-- The second propagation, and the second bias vector as a row. -/
theorem spread2 : after (hostOps3 (F := Ideal)) Vv (Proc.devRef .tc main_v64)
    = Cert.Gcn.aggRows128 (Vv (Proc.devRef .tc main_v5)) (Vv (Proc.devRef .tc main_v6)) (Vv (Proc.devRef .tc main_v34)) (Vv (Proc.devRef .tc main_v51)) := by
  after_results_simp <;> rfl
theorem row2 : after (hostOps3 (F := Ideal)) Vv (Proc.devRef .tc main_v65) = shapeCast S1x128 (Vv (Proc.devRef .tc main_arg5)) shapeCasts_S128_S1x128 := by
  after_results_simp <;> rfl

/-- The third propagation, and the third bias vector as a row. -/
theorem spread3 : after (hostOps5 (F := Ideal)) Vv (Proc.devRef .tc main_v80)
    = Cert.Gcn.aggRows40 (Vv (Proc.devRef .tc main_v5)) (Vv (Proc.devRef .tc main_v6)) (Vv (Proc.devRef .tc main_v34)) (Vv (Proc.devRef .tc main_v67)) := by
  after_results_simp <;> rfl
theorem row3 : after (hostOps5 (F := Ideal)) Vv (Proc.devRef .tc main_v81) = shapeCast S1x40 (Vv (Proc.devRef .tc main_arg7)) shapeCasts_S40_S1x40 := by
  after_results_simp <;> rfl

end Stretches

/-! ## The contents at the boundaries -/

section Boundaries

variable (m : (ℓ : Loc nD τ sig) → Buf (Elt Ideal) ℓ) (ρ : Dev nD → PrngReg) (c : Dev nD)

/-- A buffer that neither region 0 nor the stretches and regions after it up to a boundary write keeps, there, what the
    first three stretches left in it: one lemma per boundary, each step a region's "every other buffer as entered" or a
    stretch's "a buffer it does not write". -/
theorem keep4 (b : Ref sig .tc) (h0 : ∀ w, Pipeline.arrRef spec0 w ≠ b) :
    W4 m ρ c (Proc.devRef .tc b) = W3 m ρ c (Proc.devRef .tc b) := W4_of_ne m ρ c b h0
theorem keep5 (b : Ref sig .tc) (h0 : ∀ w, Pipeline.arrRef spec0 w ≠ b)
    (k1 : ∀ Vv : Valuation τ sig (Elt Ideal), after (hostOps1 (F := Ideal)) Vv (Proc.devRef .tc b) = Vv (Proc.devRef .tc b)) :
    W5 m ρ c (Proc.devRef .tc b) = W3 m ρ c (Proc.devRef .tc b) := (k1 _).trans (keep4 m ρ c b h0)
theorem keep6 (b : Ref sig .tc) (h0 : ∀ w, Pipeline.arrRef spec0 w ≠ b)
    (k1 : ∀ Vv : Valuation τ sig (Elt Ideal), after (hostOps1 (F := Ideal)) Vv (Proc.devRef .tc b) = Vv (Proc.devRef .tc b))
    (h1 : ∀ w, Pipeline.arrRef spec1 w ≠ b) :
    W6 m ρ c (Proc.devRef .tc b) = W3 m ρ c (Proc.devRef .tc b) := (W6_of_ne m ρ c b h1).trans (keep5 m ρ c b h0 k1)
theorem keep7 (b : Ref sig .tc) (h0 : ∀ w, Pipeline.arrRef spec0 w ≠ b)
    (k1 : ∀ Vv : Valuation τ sig (Elt Ideal), after (hostOps1 (F := Ideal)) Vv (Proc.devRef .tc b) = Vv (Proc.devRef .tc b))
    (h1 : ∀ w, Pipeline.arrRef spec1 w ≠ b) (h2 : ∀ w, Pipeline.arrRef spec2 w ≠ b) :
    W7 m ρ c (Proc.devRef .tc b) = W3 m ρ c (Proc.devRef .tc b) := (W7_of_ne m ρ c b h2).trans (keep6 m ρ c b h0 k1 h1)
theorem keep8 (b : Ref sig .tc) (h0 : ∀ w, Pipeline.arrRef spec0 w ≠ b)
    (k1 : ∀ Vv : Valuation τ sig (Elt Ideal), after (hostOps1 (F := Ideal)) Vv (Proc.devRef .tc b) = Vv (Proc.devRef .tc b))
    (h1 : ∀ w, Pipeline.arrRef spec1 w ≠ b) (h2 : ∀ w, Pipeline.arrRef spec2 w ≠ b)
    (k3 : ∀ Vv : Valuation τ sig (Elt Ideal), after (hostOps3 (F := Ideal)) Vv (Proc.devRef .tc b) = Vv (Proc.devRef .tc b)) :
    W8 m ρ c (Proc.devRef .tc b) = W3 m ρ c (Proc.devRef .tc b) := (k3 _).trans (keep7 m ρ c b h0 k1 h1 h2)
theorem keep9 (b : Ref sig .tc) (h0 : ∀ w, Pipeline.arrRef spec0 w ≠ b)
    (k1 : ∀ Vv : Valuation τ sig (Elt Ideal), after (hostOps1 (F := Ideal)) Vv (Proc.devRef .tc b) = Vv (Proc.devRef .tc b))
    (h1 : ∀ w, Pipeline.arrRef spec1 w ≠ b) (h2 : ∀ w, Pipeline.arrRef spec2 w ≠ b)
    (k3 : ∀ Vv : Valuation τ sig (Elt Ideal), after (hostOps3 (F := Ideal)) Vv (Proc.devRef .tc b) = Vv (Proc.devRef .tc b))
    (h3 : ∀ w, Pipeline.arrRef spec3 w ≠ b) :
    W9 m ρ c (Proc.devRef .tc b) = W3 m ρ c (Proc.devRef .tc b) := (W9_of_ne m ρ c b h3).trans (keep8 m ρ c b h0 k1 h1 h2 k3)
theorem keep10 (b : Ref sig .tc) (h0 : ∀ w, Pipeline.arrRef spec0 w ≠ b)
    (k1 : ∀ Vv : Valuation τ sig (Elt Ideal), after (hostOps1 (F := Ideal)) Vv (Proc.devRef .tc b) = Vv (Proc.devRef .tc b))
    (h1 : ∀ w, Pipeline.arrRef spec1 w ≠ b) (h2 : ∀ w, Pipeline.arrRef spec2 w ≠ b)
    (k3 : ∀ Vv : Valuation τ sig (Elt Ideal), after (hostOps3 (F := Ideal)) Vv (Proc.devRef .tc b) = Vv (Proc.devRef .tc b))
    (h3 : ∀ w, Pipeline.arrRef spec3 w ≠ b) (h4 : ∀ w, Pipeline.arrRef spec4 w ≠ b) :
    W10 m ρ c (Proc.devRef .tc b) = W3 m ρ c (Proc.devRef .tc b) := (W10_of_ne m ρ c b h4).trans (keep9 m ρ c b h0 k1 h1 h2 k3 h3)

/-! ### After the first three stretches -/

theorem at3_src : W3 m ρ c (Proc.devRef .tc main_v5) = Cert.Gcn.src (m ((c : Thread nD τ).loc main_arg1)) := by
  show after hostOps0_2 (after hostOps0_1 (after hostOps0 (W0 m ρ c))) (Proc.devRef .tc main_v5) = _
  rw [norms_keep_src, chosen_keeps_src, src_list]

theorem at3_dst : W3 m ρ c (Proc.devRef .tc main_v6) = Cert.Gcn.dst (m ((c : Thread nD τ).loc main_arg1)) := by
  show after hostOps0_2 (after hostOps0_1 (after hostOps0 (W0 m ρ c))) (Proc.devRef .tc main_v6) = _
  rw [norms_keep_dst, chosen_keeps_dst, dst_list]

theorem at3_nrm : W3 m ρ c (Proc.devRef .tc main_v34) = Cert.Gcn.nrm (m ((c : Thread nD τ).loc main_arg1)) := by
  show after hostOps0_2 (after hostOps0_1 (after hostOps0 (W0 m ρ c))) (Proc.devRef .tc main_v34) = _
  rw [norms, chosen, chosen_keeps_src, chosen_keeps_dst, deg_positive, deg_rsqrt, zero_word, src_list, dst_list]; rfl

theorem at3_arg0 : W3 m ρ c (Proc.devRef .tc main_arg0) = m ((c : Thread nD τ).loc main_arg0) := by
  show after hostOps0_2 (after hostOps0_1 (after hostOps0 (W0 m ρ c))) (Proc.devRef .tc main_arg0) = _
  after_results_simp <;> rfl
theorem at3_arg2 : W3 m ρ c (Proc.devRef .tc main_arg2) = m ((c : Thread nD τ).loc main_arg2) := by
  show after hostOps0_2 (after hostOps0_1 (after hostOps0 (W0 m ρ c))) (Proc.devRef .tc main_arg2) = _
  after_results_simp <;> rfl
theorem at3_arg3 : W3 m ρ c (Proc.devRef .tc main_arg3) = m ((c : Thread nD τ).loc main_arg3) := by
  show after hostOps0_2 (after hostOps0_1 (after hostOps0 (W0 m ρ c))) (Proc.devRef .tc main_arg3) = _
  after_results_simp <;> rfl
theorem at3_arg4 : W3 m ρ c (Proc.devRef .tc main_arg4) = m ((c : Thread nD τ).loc main_arg4) := by
  show after hostOps0_2 (after hostOps0_1 (after hostOps0 (W0 m ρ c))) (Proc.devRef .tc main_arg4) = _
  after_results_simp <;> rfl
theorem at3_arg5 : W3 m ρ c (Proc.devRef .tc main_arg5) = m ((c : Thread nD τ).loc main_arg5) := by
  show after hostOps0_2 (after hostOps0_1 (after hostOps0 (W0 m ρ c))) (Proc.devRef .tc main_arg5) = _
  after_results_simp <;> rfl
theorem at3_arg6 : W3 m ρ c (Proc.devRef .tc main_arg6) = m ((c : Thread nD τ).loc main_arg6) := by
  show after hostOps0_2 (after hostOps0_1 (after hostOps0 (W0 m ρ c))) (Proc.devRef .tc main_arg6) = _
  after_results_simp <;> rfl
theorem at3_arg7 : W3 m ρ c (Proc.devRef .tc main_arg7) = m ((c : Thread nD τ).loc main_arg7) := by
  show after hostOps0_2 (after hostOps0_1 (after hostOps0 (W0 m ρ c))) (Proc.devRef .tc main_arg7) = _
  after_results_simp <;> rfl

/-! ### The first layer -/

theorem at4_product : W4 m ρ c (Proc.devRef .tc main_v35) = Cert.Gcn.dot128 (m ((c : Thread nD τ).loc main_arg0)) (m ((c : Thread nD τ).loc main_arg2)) := by
  refine (W4_arr m ρ c 2).trans ((Cert.KernelIdeal.Tiles.product0 (V3 m ρ) c).trans ?_)
  show Cert.Gcn.dot128 (W3 m ρ c (Proc.devRef .tc main_arg0)) (W3 m ρ c (Proc.devRef .tc main_arg2)) = _
  rw [at3_arg0, at3_arg2]

theorem at5_spread : W5 m ρ c (Proc.devRef .tc main_v48) = Cert.Gcn.agg128 (m ((c : Thread nD τ).loc main_arg1)) (Cert.Gcn.dot128 (m ((c : Thread nD τ).loc main_arg0)) (m ((c : Thread nD τ).loc main_arg2))) := by
  show after hostOps1 (W4 m ρ c) (Proc.devRef .tc main_v48) = _
  rw [spread1, keep4 m ρ c main_v5 (by decide), keep4 m ρ c main_v6 (by decide), keep4 m ρ c main_v34 (by decide),
    at3_src, at3_dst, at3_nrm, at4_product]
  rfl

theorem at5_row : W5 m ρ c (Proc.devRef .tc main_v49) = shapeCast S1x128 (m ((c : Thread nD τ).loc main_arg3)) shapeCasts_S128_S1x128 := by
  show after hostOps1 (W4 m ρ c) (Proc.devRef .tc main_v49) = _
  rw [row1, keep4 m ρ c main_arg3 (by decide), at3_arg3]

theorem at6_layer : W6 m ρ c (Proc.devRef .tc main_v50)
    = Cert.Gcn.biasRelu (Cert.Gcn.agg128 (m ((c : Thread nD τ).loc main_arg1)) (Cert.Gcn.dot128 (m ((c : Thread nD τ).loc main_arg0)) (m ((c : Thread nD τ).loc main_arg2)))) (m ((c : Thread nD τ).loc main_arg3)) := by
  refine (W6_arr m ρ c 2).trans ((Cert.KernelIdeal.Tiles.biasRelu1 (V5 m ρ) c (m ((c : Thread nD τ).loc main_arg3)) (at5_row m ρ c)).trans ?_)
  show Cert.Gcn.biasRelu (W5 m ρ c (Proc.devRef .tc main_v48)) _ = _
  rw [at5_spread]

/-! ### The second layer -/

theorem at7_product : W7 m ρ c (Proc.devRef .tc main_v51)
    = Cert.Gcn.dot128 (Cert.Gcn.biasRelu (Cert.Gcn.agg128 (m ((c : Thread nD τ).loc main_arg1)) (Cert.Gcn.dot128 (m ((c : Thread nD τ).loc main_arg0)) (m ((c : Thread nD τ).loc main_arg2)))) (m ((c : Thread nD τ).loc main_arg3))) (m ((c : Thread nD τ).loc main_arg4)) := by
  refine (W7_arr m ρ c 2).trans ((Cert.KernelIdeal.Tiles.product2 (V6 m ρ) c).trans ?_)
  show Cert.Gcn.dot128 (W6 m ρ c (Proc.devRef .tc main_v50)) (W6 m ρ c (Proc.devRef .tc main_arg4)) = _
  rw [at6_layer, keep6 m ρ c main_arg4 (by decide) (fun _ => by after_results_simp) (by decide), at3_arg4]

theorem at8_spread : W8 m ρ c (Proc.devRef .tc main_v64)
    = Cert.Gcn.agg128 (m ((c : Thread nD τ).loc main_arg1)) (Cert.Gcn.dot128 (Cert.Gcn.biasRelu (Cert.Gcn.agg128 (m ((c : Thread nD τ).loc main_arg1)) (Cert.Gcn.dot128 (m ((c : Thread nD τ).loc main_arg0)) (m ((c : Thread nD τ).loc main_arg2)))) (m ((c : Thread nD τ).loc main_arg3))) (m ((c : Thread nD τ).loc main_arg4))) := by
  show after hostOps3 (W7 m ρ c) (Proc.devRef .tc main_v64) = _
  rw [spread2, keep7 m ρ c main_v5 (by decide) (fun _ => by after_results_simp) (by decide) (by decide),
    keep7 m ρ c main_v6 (by decide) (fun _ => by after_results_simp) (by decide) (by decide),
    keep7 m ρ c main_v34 (by decide) (fun _ => by after_results_simp) (by decide) (by decide),
    at3_src, at3_dst, at3_nrm, at7_product]
  rfl

theorem at8_row : W8 m ρ c (Proc.devRef .tc main_v65) = shapeCast S1x128 (m ((c : Thread nD τ).loc main_arg5)) shapeCasts_S128_S1x128 := by
  show after hostOps3 (W7 m ρ c) (Proc.devRef .tc main_v65) = _
  rw [row2, keep7 m ρ c main_arg5 (by decide) (fun _ => by after_results_simp) (by decide) (by decide), at3_arg5]

theorem at9_layer : W9 m ρ c (Proc.devRef .tc main_v66)
    = Cert.Gcn.biasRelu (Cert.Gcn.agg128 (m ((c : Thread nD τ).loc main_arg1)) (Cert.Gcn.dot128 (Cert.Gcn.biasRelu (Cert.Gcn.agg128 (m ((c : Thread nD τ).loc main_arg1)) (Cert.Gcn.dot128 (m ((c : Thread nD τ).loc main_arg0)) (m ((c : Thread nD τ).loc main_arg2)))) (m ((c : Thread nD τ).loc main_arg3))) (m ((c : Thread nD τ).loc main_arg4)))) (m ((c : Thread nD τ).loc main_arg5)) := by
  refine (W9_arr m ρ c 2).trans ((Cert.KernelIdeal.Tiles.biasRelu3 (V8 m ρ) c (m ((c : Thread nD τ).loc main_arg5)) (at8_row m ρ c)).trans ?_)
  show Cert.Gcn.biasRelu (W8 m ρ c (Proc.devRef .tc main_v64)) _ = _
  rw [at8_spread]

/-! ### The third layer -/

theorem at10_product : W10 m ρ c (Proc.devRef .tc main_v67) = Cert.Gcn.dot40 (Cert.Gcn.biasRelu (Cert.Gcn.agg128 (m ((c : Thread nD τ).loc main_arg1)) (Cert.Gcn.dot128 (Cert.Gcn.biasRelu (Cert.Gcn.agg128 (m ((c : Thread nD τ).loc main_arg1)) (Cert.Gcn.dot128 (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6)) := by
  refine (W10_arr m ρ c 2).trans ((Cert.KernelIdeal.Tiles.product4 (V9 m ρ) c).trans ?_)
  show Cert.Gcn.dot40 (W9 m ρ c (Proc.devRef .tc main_v66)) (W9 m ρ c (Proc.devRef .tc main_arg6)) = _
  rw [at9_layer, keep9 m ρ c main_arg6 (by decide) (fun _ => by after_results_simp) (by decide) (by decide) (fun _ => by after_results_simp) (by decide), at3_arg6]

theorem at11_spread : W11 m ρ c (Proc.devRef .tc main_v80) = Cert.Gcn.agg40 (m ((c : Thread nD τ).loc main_arg1)) (Cert.Gcn.dot40 (Cert.Gcn.biasRelu (Cert.Gcn.agg128 (m ((c : Thread nD τ).loc main_arg1)) (Cert.Gcn.dot128 (Cert.Gcn.biasRelu (Cert.Gcn.agg128 (m ((c : Thread nD τ).loc main_arg1)) (Cert.Gcn.dot128 (m ((c : Thread nD τ).loc main_arg0)) (m ((c : Thread nD τ).loc main_arg2)))) (m ((c : Thread nD τ).loc main_arg3))) (m ((c : Thread nD τ).loc main_arg4)))) (m ((c : Thread nD τ).loc main_arg5))) (m ((c : Thread nD τ).loc main_arg6))) := by
  show after hostOps5 (W10 m ρ c) (Proc.devRef .tc main_v80) = _
  rw [spread3, keep10 m ρ c main_v5 (by decide) (fun _ => by after_results_simp) (by decide) (by decide) (fun _ => by after_results_simp) (by decide) (by decide),
    keep10 m ρ c main_v6 (by decide) (fun _ => by after_results_simp) (by decide) (by decide) (fun _ => by after_results_simp) (by decide) (by decide),
    keep10 m ρ c main_v34 (by decide) (fun _ => by after_results_simp) (by decide) (by decide) (fun _ => by after_results_simp) (by decide) (by decide),
    at3_src, at3_dst, at3_nrm, at10_product]
  rfl

theorem at11_row : W11 m ρ c (Proc.devRef .tc main_v81) = shapeCast S1x40 (m ((c : Thread nD τ).loc main_arg7)) shapeCasts_S40_S1x40 := by
  show after hostOps5 (W10 m ρ c) (Proc.devRef .tc main_v81) = _
  rw [row3, keep10 m ρ c main_arg7 (by decide) (fun _ => by after_results_simp) (by decide) (by decide) (fun _ => by after_results_simp) (by decide) (by decide), at3_arg7]

/-- The result array at the last boundary is the network of the launch contents of the eight arguments. -/
theorem result : W12 m ρ c (Proc.devRef .tc main_v82)
    = Cert.Gcn.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ((Cert.KernelIdeal.Tiles.logSoftmax5 (V11 m ρ) c (m ((c : Thread nD τ).loc main_arg7)) (at11_row m ρ c)).trans ?_)
  show Cert.Gcn.logSoftmax (Cert.Gcn.addBias40 (W11 m ρ c (Proc.devRef .tc main_v80)) _) = _
  rw [at11_spread]
  rfl

end Boundaries

end Cert.KernelIdeal.Chain

end
-- ==== Proof.RefValue.lean ====
/-
  What the reference computes: its one result is the three-layer network of the specification, applied to the arguments.

  The reference is a straight line of 128 whole-array operations. Read in order it falls into four stretches, each made
  of a few shorter runs of operations.

  The first stretch (47 operations) only prepares the edge list. It appends one self loop per node to the sources and to
  the targets; counts each node's degree by adding ones at the targets, and takes which degrees are positive and every
  degree's inverse square root; keeps the inverse square root where the degree is positive and zero elsewhere; and forms
  each entry's norm as the product of that quantity at the entry's source and at its target.

  The second and the third stretch (23 operations each) are the two hidden layers: a product with the weights, one
  propagation along the entries, the bias added to every row, and then the maximum with zero. The fourth (35 operations)
  is the last layer — product, propagation, bias — followed by the logarithm of the softmax along each row.

  Every run of operations is read from an ARBITRARY assignment of contents to the buffers: it leaves in its result
  buffer the corresponding function of the specification applied to what it found in the buffers it reads, and it leaves
  alone the buffers it does not write. The specification is written with the very operations of the program, in the same
  order and association, so each such reading compares two identical terms. Running a concatenation of lists of
  operations is running the pieces one after the other; so the readings compose — the short runs into the four
  stretches, the four stretches into the network.
-/
import proofs.«143151_j62251255988834_1_alg».proof.Proof.RefRun
import proofs.«143151_j62251255988834_1_alg».proof.Proof.GcnSpec

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ValueP (ops main_eq scopedRefs_eq scopedSems_eq ops_sub)

/-- The contents after a concatenation of two lists of operations: those after the second list, started from the
    contents after the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-! ## The operations, run by run -/

section Runs

variable {F : FTy → Type} [FloatOps F]

/-- The entry lists: rows 0 and 1 of the edge list, each followed by every node (one self loop per node). -/
def opsLists : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The degrees: ones added into zeros at the targets; then which degrees are positive, and every degree's inverse square root. -/
def opsDegree : List (HloOp τ sig (Elt F)) :=
  [ nullary main_cst (constant S_ .f32 0x00000000#32),
    unary main_cst main_v7 (broadcastInDim S100000 ![] bcast_S_S100000 : (⟨S_, .f32⟩ : BufTy).Contents (Elt F) → (⟨S100000, .f32⟩ : BufTy).Contents (Elt F)),
    nullary main_c (constantI S_ 32 0#32),
    unary main_c main_v8 (broadcastInDim S1700000 ![] bcast_S_S1700000 : (⟨S_, .i32⟩ : BufTy).Contents (Elt F) → (⟨S1700000, .i32⟩ : BufTy).Contents (Elt F)),
    binary main_v6 main_v8 main_v9 (cmpi .slt : (⟨S1700000, .i32⟩ : BufTy).Contents (Elt F) → (⟨S1700000, .i32⟩ : BufTy).Contents (Elt F) → (⟨S1700000, .i1⟩ : BufTy).Contents (Elt F)),
    nullary main_c_0 (constantI S_ 32 100000#32),
    unary main_c_0 main_v10 (broadcastInDim S1700000 ![] bcast_S_S1700000 : (⟨S_, .i32⟩ : BufTy).Contents (Elt F) → (⟨S1700000, .i32⟩ : BufTy).Contents (Elt F)),
    binary main_v6 main_v10 main_v11 (addi : (⟨S1700000, .i32⟩ : BufTy).Contents (Elt F) → (⟨S1700000, .i32⟩ : BufTy).Contents (Elt F) → (⟨S1700000, .i32⟩ : BufTy).Contents (Elt F)),
    ternary main_v9 main_v11 main_v6 main_v12 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v12 main_v13 (broadcastInDim S1700000x1 ![0] bcast_S1700000_S1700000x1_0 : (⟨S1700000, .i32⟩ : BufTy).Contents (Elt F) → (⟨S1700000x1, .i32⟩ : BufTy).Contents (Elt F)),
    nullary main_cst_1 (constant S_ .f32 0x3F800000#32),
    unary main_cst_1 main_v14 (broadcastInDim S1700000 ![] bcast_S_S1700000 : (⟨S_, .f32⟩ : BufTy).Contents (Elt F) → (⟨S1700000, .f32⟩ : BufTy).Contents (Elt F)),
    ternary main_v7 main_v13 main_v14 main_v15 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_2 (constant S_ .f32 0x00000000#32),
    unary main_cst_2 main_v16 (broadcastInDim S100000 ![] bcast_S_S100000 : (⟨S_, .f32⟩ : BufTy).Contents (Elt F) → (⟨S100000, .f32⟩ : BufTy).Contents (Elt F)),
    binary main_v15 main_v16 main_v17 (cmpf .ogt : (⟨S100000, .f32⟩ : BufTy).Contents (Elt F) → (⟨S100000, .f32⟩ : BufTy).Contents (Elt F) → (⟨S100000, .i1⟩ : BufTy).Contents (Elt F)),
    unary main_v15 main_v18 (Host.rsqrt : (⟨S100000, .f32⟩ : BufTy).Contents (Elt F) → (⟨S100000, .f32⟩ : BufTy).Contents (Elt F)) ]

/-- The choice between them: the inverse square root where the degree is positive, zero elsewhere. -/
def opsWhere : List (HloOp τ sig (Elt F)) :=
  [ nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v17) (TRef.of (T := ⟨S100000, .f32⟩) main_v18) (TRef.of (T := ⟨S100000, .f32⟩) main_call0_v1) (TRef.of (T := ⟨S100000, .f32⟩) main_v19) select ]

/-- The norms: that quantity read at each entry's source and at its target, and the product of the two. -/
def opsNorms : List (HloOp τ sig (Elt F)) :=
  [ nullary main_c_4 (constantI S_ 32 0#32),
    unary main_c_4 main_v20 (broadcastInDim S1700000 ![] bcast_S_S1700000 : (⟨S_, .i32⟩ : BufTy).Contents (Elt F) → (⟨S1700000, .i32⟩ : BufTy).Contents (Elt F)),
    binary main_v5 main_v20 main_v21 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v22 (broadcastInDim S1700000 ![] bcast_S_S1700000 : (⟨S_, .i32⟩ : BufTy).Contents (Elt F) → (⟨S1700000, .i32⟩ : BufTy).Contents (Elt F)),
    binary main_v5 main_v22 main_v23 (addi : (⟨S1700000, .i32⟩ : BufTy).Contents (Elt F) → (⟨S1700000, .i32⟩ : BufTy).Contents (Elt F) → (⟨S1700000, .i32⟩ : BufTy).Contents (Elt F)),
    ternary main_v21 main_v23 main_v5 main_v24 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v24 main_v25 (broadcastInDim S1700000x1 ![0] bcast_S1700000_S1700000x1_0 : (⟨S1700000, .i32⟩ : BufTy).Contents (Elt F) → (⟨S1700000x1, .i32⟩ : BufTy).Contents (Elt F)),
    binary main_v19 main_v25 main_v26 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_6 (constantI S_ 32 0#32),
    unary main_c_6 main_v27 (broadcastInDim S1700000 ![] bcast_S_S1700000 : (⟨S_, .i32⟩ : BufTy).Contents (Elt F) → (⟨S1700000, .i32⟩ : BufTy).Contents (Elt F)),
    binary main_v6 main_v27 main_v28 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v29 (broadcastInDim S1700000 ![] bcast_S_S1700000 : (⟨S_, .i32⟩ : BufTy).Contents (Elt F) → (⟨S1700000, .i32⟩ : BufTy).Contents (Elt F)),
    binary main_v6 main_v29 main_v30 (addi : (⟨S1700000, .i32⟩ : BufTy).Contents (Elt F) → (⟨S1700000, .i32⟩ : BufTy).Contents (Elt F) → (⟨S1700000, .i32⟩ : BufTy).Contents (Elt F)),
    ternary main_v28 main_v30 main_v6 main_v31 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v31 main_v32 (broadcastInDim S1700000x1 ![0] bcast_S1700000_S1700000x1_0 : (⟨S1700000, .i32⟩ : BufTy).Contents (Elt F) → (⟨S1700000x1, .i32⟩ : BufTy).Contents (Elt F)),
    binary main_v19 main_v32 main_v33 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v26 main_v33 main_v34 (mulf : (⟨S1700000, .f32⟩ : BufTy).Contents (Elt F) → (⟨S1700000, .f32⟩ : BufTy).Contents (Elt F) → (⟨S1700000, .f32⟩ : BufTy).Contents (Elt F)) ]

/-- First layer before its maximum: product with the weights, one propagation along the entries, the bias added to every row. -/
def opsSpread1 : List (HloOp τ sig (Elt F)) :=
  [ binary main_arg0 main_arg2 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_8 (constantI S_ 32 0#32),
    unary main_c_8 main_v36 (broadcastInDim S1700000 ![] bcast_S_S1700000 : (⟨S_, .i32⟩ : BufTy).Contents (Elt F) → (⟨S1700000, .i32⟩ : BufTy).Contents (Elt F)),
    binary main_v5 main_v36 main_v37 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v38 (broadcastInDim S1700000 ![] bcast_S_S1700000 : (⟨S_, .i32⟩ : BufTy).Contents (Elt F) → (⟨S1700000, .i32⟩ : BufTy).Contents (Elt F)),
    binary main_v5 main_v38 main_v39 (addi : (⟨S1700000, .i32⟩ : BufTy).Contents (Elt F) → (⟨S1700000, .i32⟩ : BufTy).Contents (Elt F) → (⟨S1700000, .i32⟩ : BufTy).Contents (Elt F)),
    ternary main_v37 main_v39 main_v5 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v40 main_v41 (broadcastInDim S1700000x1 ![0] bcast_S1700000_S1700000x1_0 : (⟨S1700000, .i32⟩ : BufTy).Contents (Elt F) → (⟨S1700000x1, .i32⟩ : BufTy).Contents (Elt F)),
    binary main_v35 main_v41 main_v42 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v34 main_v43 (broadcastInDim S1700000x1 ![0] bcast_S1700000_S1700000x1_0 : (⟨S1700000, .f32⟩ : BufTy).Contents (Elt F) → (⟨S1700000x1, .f32⟩ : BufTy).Contents (Elt F)),
    unary main_v43 main_v44 (broadcastInDim S1700000x128 ![0, 1] bcast_S1700000x1_S1700000x128_0_1 : (⟨S1700000x1, .f32⟩ : BufTy).Contents (Elt F) → (⟨S1700000x128, .f32⟩ : BufTy).Contents (Elt F)),
    binary main_v42 main_v44 main_v45 (mulf : (⟨S1700000x128, .f32⟩ : BufTy).Contents (Elt F) → (⟨S1700000x128, .f32⟩ : BufTy).Contents (Elt F) → (⟨S1700000x128, .f32⟩ : BufTy).Contents (Elt F)),
    nullary main_cst_10 (constant S_ .f32 0x00000000#32),
    unary main_cst_10 main_v46 (broadcastInDim S100000x128 ![] bcast_S_S100000x128 : (⟨S_, .f32⟩ : BufTy).Contents (Elt F) → (⟨S100000x128, .f32⟩ : BufTy).Contents (Elt F)),
    unary main_v6 main_v47 (broadcastInDim S1700000x1 ![0] bcast_S1700000_S1700000x1_0 : (⟨S1700000, .i32⟩ : BufTy).Contents (Elt F) → (⟨S1700000x1, .i32⟩ : BufTy).Contents (Elt F)),
    ternary main_v46 main_v47 main_v45 main_v48 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)) ]

/-- First layer's maximum with zero. -/
def opsRelu1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v51) (TRef.of (T := ⟨S100000x128, .f32⟩) main_call1_v0) (TRef.of (T := ⟨S100000x128, .f32⟩) main_v52) maximumf ]

/-- Second layer before its maximum: the same three steps from the first layer's result. -/
def opsSpread2 : List (HloOp τ sig (Elt F)) :=
  [ binary main_v52 main_arg4 main_v53 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_11 (constantI S_ 32 0#32),
    unary main_c_11 main_v54 (broadcastInDim S1700000 ![] bcast_S_S1700000 : (⟨S_, .i32⟩ : BufTy).Contents (Elt F) → (⟨S1700000, .i32⟩ : BufTy).Contents (Elt F)),
    binary main_v5 main_v54 main_v55 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v56 (broadcastInDim S1700000 ![] bcast_S_S1700000 : (⟨S_, .i32⟩ : BufTy).Contents (Elt F) → (⟨S1700000, .i32⟩ : BufTy).Contents (Elt F)),
    binary main_v5 main_v56 main_v57 (addi : (⟨S1700000, .i32⟩ : BufTy).Contents (Elt F) → (⟨S1700000, .i32⟩ : BufTy).Contents (Elt F) → (⟨S1700000, .i32⟩ : BufTy).Contents (Elt F)),
    ternary main_v55 main_v57 main_v5 main_v58 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v58 main_v59 (broadcastInDim S1700000x1 ![0] bcast_S1700000_S1700000x1_0 : (⟨S1700000, .i32⟩ : BufTy).Contents (Elt F) → (⟨S1700000x1, .i32⟩ : BufTy).Contents (Elt F)),
    binary main_v53 main_v59 main_v60 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v34 main_v61 (broadcastInDim S1700000x1 ![0] bcast_S1700000_S1700000x1_0 : (⟨S1700000, .f32⟩ : BufTy).Contents (Elt F) → (⟨S1700000x1, .f32⟩ : BufTy).Contents (Elt F)),
    unary main_v61 main_v62 (broadcastInDim S1700000x128 ![0, 1] bcast_S1700000x1_S1700000x128_0_1 : (⟨S1700000x1, .f32⟩ : BufTy).Contents (Elt F) → (⟨S1700000x128, .f32⟩ : BufTy).Contents (Elt F)),
    binary main_v60 main_v62 main_v63 (mulf : (⟨S1700000x128, .f32⟩ : BufTy).Contents (Elt F) → (⟨S1700000x128, .f32⟩ : BufTy).Contents (Elt F) → (⟨S1700000x128, .f32⟩ : BufTy).Contents (Elt F)),
    nullary main_cst_13 (constant S_ .f32 0x00000000#32),
    unary main_cst_13 main_v64 (broadcastInDim S100000x128 ![] bcast_S_S100000x128 : (⟨S_, .f32⟩ : BufTy).Contents (Elt F) → (⟨S100000x128, .f32⟩ : BufTy).Contents (Elt F)),
    unary main_v6 main_v65 (broadcastInDim S1700000x1 ![0] bcast_S1700000_S1700000x1_0 : (⟨S1700000, .i32⟩ : BufTy).Contents (Elt F) → (⟨S1700000x1, .i32⟩ : BufTy).Contents (Elt F)),
    ternary main_v64 main_v65 main_v63 main_v66 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v67 (broadcastInDim S1x128 ![1] bcast_S128_S1x128_1 : (⟨S128, .f32⟩ : BufTy).Contents (Elt F) → (⟨S1x128, .f32⟩ : BufTy).Contents (Elt F)),
    unary main_v67 main_v68 (broadcastInDim S100000x128 ![0, 1] bcast_S1x128_S100000x128_0_1 : (⟨S1x128, .f32⟩ : BufTy).Contents (Elt F) → (⟨S100000x128, .f32⟩ : BufTy).Contents (Elt F)),
    binary main_v66 main_v68 main_v69 (addf : (⟨S100000x128, .f32⟩ : BufTy).Contents (Elt F) → (⟨S100000x128, .f32⟩ : BufTy).Contents (Elt F) → (⟨S100000x128, .f32⟩ : BufTy).Contents (Elt F)) ]

/-- Second layer's maximum with zero. -/
def opsRelu2 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v69) (TRef.of (T := ⟨S100000x128, .f32⟩) main_call2_v0) (TRef.of (T := ⟨S100000x128, .f32⟩) main_v70) maximumf ]

/-- Last layer: product with the 128 × 40 weights, one propagation, the bias added to every row. -/
def opsSpread3 : List (HloOp τ sig (Elt F)) :=
  [ binary main_v70 main_arg6 main_v71 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    nullary main_c_14 (constantI S_ 32 0#32),
    unary main_c_14 main_v72 (broadcastInDim S1700000 ![] bcast_S_S1700000 : (⟨S_, .i32⟩ : BufTy).Contents (Elt F) → (⟨S1700000, .i32⟩ : BufTy).Contents (Elt F)),
    binary main_v5 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v74 (broadcastInDim S1700000 ![] bcast_S_S1700000 : (⟨S_, .i32⟩ : BufTy).Contents (Elt F) → (⟨S1700000, .i32⟩ : BufTy).Contents (Elt F)),
    binary main_v5 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v5 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v71 main_v77 main_v78 ((fun x i => Host.gather gather_S100000x40_S1700000x1_S1700000x40_1_0_n_n_0_1_140 x i) : (⟨S100000x40, .f32⟩ : BufTy).Contents (Elt F) → (⟨S1700000x1, .i32⟩ : BufTy).Contents (Elt F) → (⟨S1700000x40, .f32⟩ : BufTy).Contents (Elt F)),
    unary main_v34 main_v79 (broadcastInDim S1700000x1 ![0] bcast_S1700000_S1700000x1_0 : (⟨S1700000, .f32⟩ : BufTy).Contents (Elt F) → (⟨S1700000x1, .f32⟩ : BufTy).Contents (Elt F)),
    unary main_v79 main_v80 (broadcastInDim S1700000x40 ![0, 1] bcast_S1700000x1_S1700000x40_0_1 : (⟨S1700000x1, .f32⟩ : BufTy).Contents (Elt F) → (⟨S1700000x40, .f32⟩ : BufTy).Contents (Elt F)),
    binary main_v78 main_v80 main_v81 (mulf : (⟨S1700000x40, .f32⟩ : BufTy).Contents (Elt F) → (⟨S1700000x40, .f32⟩ : BufTy).Contents (Elt F) → (⟨S1700000x40, .f32⟩ : BufTy).Contents (Elt F)),
    nullary main_cst_16 (constant S_ .f32 0x00000000#32),
    unary main_cst_16 main_v82 (broadcastInDim S100000x40 ![] bcast_S_S100000x40 : (⟨S_, .f32⟩ : BufTy).Contents (Elt F) → (⟨S100000x40, .f32⟩ : BufTy).Contents (Elt F)),
    unary main_v6 main_v83 (broadcastInDim S1700000x1 ![0] bcast_S1700000_S1700000x1_0 : (⟨S1700000, .i32⟩ : BufTy).Contents (Elt F) → (⟨S1700000x1, .i32⟩ : BufTy).Contents (Elt F)),
    ternary main_v82 main_v83 main_v81 main_v84 ((fun x i u => Host.scatterAdd scatter_S100000x40_S1700000x1_S1700000x40_1_0_0_1 x i u) : (⟨S100000x40, .f32⟩ : BufTy).Contents (Elt F) → (⟨S1700000x1, .i32⟩ : BufTy).Contents (Elt F) → (⟨S1700000x40, .f32⟩ : BufTy).Contents (Elt F) → (⟨S100000x40, .f32⟩ : BufTy).Contents (Elt F)),
    unary main_arg7 main_v85 (broadcastInDim S1x40 ![1] bcast_S40_S1x40_1 : (⟨S40, .f32⟩ : BufTy).Contents (Elt F) → (⟨S1x40, .f32⟩ : BufTy).Contents (Elt F)),
    unary main_v85 main_v86 (broadcastInDim S100000x40 ![0, 1] bcast_S1x40_S100000x40_0_1 : (⟨S1x40, .f32⟩ : BufTy).Contents (Elt F) → (⟨S100000x40, .f32⟩ : BufTy).Contents (Elt F)),
    binary main_v84 main_v86 main_v87 (addf : (⟨S100000x40, .f32⟩ : BufTy).Contents (Elt F) → (⟨S100000x40, .f32⟩ : BufTy).Contents (Elt F) → (⟨S100000x40, .f32⟩ : BufTy).Contents (Elt F)) ]

/-- Each row's maximum, from minus infinity. -/
def opsRowReduce : List (HloOp τ sig (Elt F)) :=
  [ TRef.nullary (TRef.of (T := ⟨S_, .f32⟩) main_call3_cst) (constant S_ .f32 0xFF800000#32),
    TRef.binary (TRef.of (T := ⟨S100000x40, .f32⟩) main_v87) (TRef.of (T := ⟨S_, .f32⟩) main_call3_cst) (TRef.of (T := ⟨S100000, .f32⟩) main_call3_v0) (fun x v => Host.reduce FloatOps.maximumf x v reducesTo_S100000x40_S100000_d1 h_S_) ]

/-- Once more the maximum with minus infinity. -/
def opsRowMax : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf ]

/-- Each row minus its maximum. -/
def opsShift : List (HloOp τ sig (Elt F)) :=
  [ TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v87) (TRef.of (T := ⟨S100000x40, .f32⟩) main_call3_v4) (TRef.of (T := ⟨S100000x40, .f32⟩) main_call3_v5) subf ]

/-- The sum of the exponentials of each shifted row. -/
def opsExpSum : List (HloOp τ sig (Elt F)) :=
  [ TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_) ]

/-- The shifted row minus the logarithm of that sum. -/
def opsLogDiff : List (HloOp τ sig (Elt F)) :=
  [ TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v88) subf ]

/-- The first stretch: everything computed from the edge list alone. -/
def opsEdges : List (HloOp τ sig (Elt F)) := opsLists ++ (opsDegree ++ (opsWhere ++ opsNorms))

/-- The second stretch: the first hidden layer. -/
def opsLayer1 : List (HloOp τ sig (Elt F)) := opsSpread1 ++ opsRelu1

/-- The third stretch: the second hidden layer. -/
def opsLayer2 : List (HloOp τ sig (Elt F)) := opsSpread2 ++ opsRelu2

/-- The logarithm of the softmax along each row, step by step. -/
def opsLogSoftmax : List (HloOp τ sig (Elt F)) := opsRowReduce ++ (opsRowMax ++ (opsShift ++ (opsExpSum ++ opsLogDiff)))

/-- The fourth stretch: the last layer and the logarithm of the softmax. -/
def opsLayer3 : List (HloOp τ sig (Elt F)) := opsSpread3 ++ opsLogSoftmax

/-- The program's operations are the four stretches, one after the other. -/
theorem ops_split : (ops : List (HloOp τ sig (Elt F))) = opsEdges ++ (opsLayer1 ++ (opsLayer2 ++ opsLayer3)) := rfl

end Runs

/-! ## The first stretch: the entries and their norms -/

/-- Appending the nodes to a list of edge ends, as a function of the two lists. -/
theorem join_eq : (fun (a : (⟨S1600000, .i32⟩ : BufTy).Contents (Elt Ideal)) (b : (⟨S100000, .i32⟩ : BufTy).Contents (Elt Ideal)) =>
    concatenate S1700000 0 [⟨S1600000, a⟩, ⟨S100000, b⟩] concatenates_S1600000_S100000_S1700000_d0) = Cert.Gcn.withLoops := rfl

/-- The source list is row 0 of the edge list followed by every node. -/
theorem lists_src (V : Valuation τ sig (Elt Ideal)) :
    after opsLists V (Proc.devRef .tc main_v5) = Cert.Gcn.src (V (Proc.devRef .tc main_arg1) : (⟨S2x1600000, .i32⟩ : BufTy).Contents (Elt Ideal)) := by
  simp only [opsLists, join_eq]; after_results_simp; rfl

/-- The target list is row 1 of the edge list followed by every node. -/
theorem lists_dst (V : Valuation τ sig (Elt Ideal)) :
    after opsLists V (Proc.devRef .tc main_v6) = Cert.Gcn.dst (V (Proc.devRef .tc main_arg1) : (⟨S2x1600000, .i32⟩ : BufTy).Contents (Elt Ideal)) := by
  simp only [opsLists, join_eq]; after_results_simp; rfl

/-- The degree of each node from a list of targets: ones added into zeros at the targets. -/
def degreeAt (d : Cert.Gcn.Entries) : FVec Ideal S100000 .f32 :=
  Host.scatterAdd (F := Ideal) scatter_S100000_S1700000x1_S1700000_n_0_0_1
    (broadcastInDim S100000 ![] bcast_S_S100000 (constant (F := Ideal) S_ .f32 0x00000000#32)) (Cert.Gcn.wrap d)
    (broadcastInDim S1700000 ![] bcast_S_S1700000 (constant (F := Ideal) S_ .f32 0x3F800000#32))

/-- Which degrees are positive. -/
theorem degree_positive (V : Valuation τ sig (Elt Ideal)) :
    after opsDegree V (Proc.devRef .tc main_v17) = cmpf (F := Ideal) .ogt (degreeAt (V (Proc.devRef .tc main_v6) : (⟨S1700000, .i32⟩ : BufTy).Contents (Elt Ideal))) (broadcastInDim S100000 ![] bcast_S_S100000 (constant (F := Ideal) S_ .f32 0x00000000#32)) := by
  unfold opsDegree; after_results_simp; rfl

/-- Every degree's inverse square root. -/
theorem degree_rsqrt (V : Valuation τ sig (Elt Ideal)) :
    after opsDegree V (Proc.devRef .tc main_v18) = Host.rsqrt (F := Ideal) (degreeAt (V (Proc.devRef .tc main_v6) : (⟨S1700000, .i32⟩ : BufTy).Contents (Elt Ideal))) := by
  unfold opsDegree; after_results_simp; rfl

theorem degree_keeps_v5 (V : Valuation τ sig (Elt Ideal)) :
    after opsDegree V (Proc.devRef .tc main_v5) = V (Proc.devRef .tc main_v5) := by
  unfold opsDegree; after_results_simp
theorem degree_keeps_v6 (V : Valuation τ sig (Elt Ideal)) :
    after opsDegree V (Proc.devRef .tc main_v6) = V (Proc.devRef .tc main_v6) := by
  unfold opsDegree; after_results_simp

/-- The inverse square root where the degree is positive, zero elsewhere. -/
theorem where_out (V : Valuation τ sig (Elt Ideal)) :
    after opsWhere V (Proc.devRef .tc main_v19) = select (V (Proc.devRef .tc main_v17) : (⟨S100000, .i1⟩ : BufTy).Contents (Elt Ideal)) (V (Proc.devRef .tc main_v18) : FVec Ideal S100000 .f32)
      (broadcastInDim S100000 ![] bcast_S_S100000 (id (constant (F := Ideal) S_ .f32 0x00000000#32))) := by
  unfold opsWhere; after_results_simp; rfl

theorem where_keeps_v5 (V : Valuation τ sig (Elt Ideal)) :
    after opsWhere V (Proc.devRef .tc main_v5) = V (Proc.devRef .tc main_v5) := by
  unfold opsWhere; after_results_simp
theorem where_keeps_v6 (V : Valuation τ sig (Elt Ideal)) :
    after opsWhere V (Proc.devRef .tc main_v6) = V (Proc.devRef .tc main_v6) := by
  unfold opsWhere; after_results_simp

/-- Each entry's norm: the chosen quantity at its source times the chosen quantity at its target. -/
theorem norms_out (V : Valuation τ sig (Elt Ideal)) :
    after opsNorms V (Proc.devRef .tc main_v34) =
      mulf (F := Ideal) (φ := .f32) (Host.gather gather_S100000_S1700000x1_S1700000_n_0_n_n_0_1_1 (V (Proc.devRef .tc main_v19) : FVec Ideal S100000 .f32) (Cert.Gcn.wrap (V (Proc.devRef .tc main_v5) : (⟨S1700000, .i32⟩ : BufTy).Contents (Elt Ideal))))
        (Host.gather gather_S100000_S1700000x1_S1700000_n_0_n_n_0_1_1 (V (Proc.devRef .tc main_v19) : FVec Ideal S100000 .f32) (Cert.Gcn.wrap (V (Proc.devRef .tc main_v6) : (⟨S1700000, .i32⟩ : BufTy).Contents (Elt Ideal)))) := by
  unfold opsNorms; after_results_simp; rfl

theorem norms_keeps_v5 (V : Valuation τ sig (Elt Ideal)) :
    after opsNorms V (Proc.devRef .tc main_v5) = V (Proc.devRef .tc main_v5) := by
  unfold opsNorms; after_results_simp
theorem norms_keeps_v6 (V : Valuation τ sig (Elt Ideal)) :
    after opsNorms V (Proc.devRef .tc main_v6) = V (Proc.devRef .tc main_v6) := by
  unfold opsNorms; after_results_simp

/-- After the first stretch the source list is that of the specification. -/
theorem edges_src (V : Valuation τ sig (Elt Ideal)) :
    after opsEdges V (Proc.devRef .tc main_v5) = Cert.Gcn.src (V (Proc.devRef .tc main_arg1) : (⟨S2x1600000, .i32⟩ : BufTy).Contents (Elt Ideal)) := by
  rw [opsEdges, after_append, after_append, after_append, norms_keeps_v5, where_keeps_v5, degree_keeps_v5, lists_src]

/-- After the first stretch the target list is that of the specification. -/
theorem edges_dst (V : Valuation τ sig (Elt Ideal)) :
    after opsEdges V (Proc.devRef .tc main_v6) = Cert.Gcn.dst (V (Proc.devRef .tc main_arg1) : (⟨S2x1600000, .i32⟩ : BufTy).Contents (Elt Ideal)) := by
  rw [opsEdges, after_append, after_append, after_append, norms_keeps_v6, where_keeps_v6, degree_keeps_v6, lists_dst]

/-- After the first stretch the norms are those of the specification: the four runs composed are its definition. -/
theorem edges_nrm (V : Valuation τ sig (Elt Ideal)) :
    after opsEdges V (Proc.devRef .tc main_v34) = Cert.Gcn.nrm (V (Proc.devRef .tc main_arg1) : (⟨S2x1600000, .i32⟩ : BufTy).Contents (Elt Ideal)) := by
  rw [opsEdges, after_append, after_append, after_append, norms_out, where_out, degree_positive, degree_rsqrt,
    where_keeps_v5, where_keeps_v6, degree_keeps_v5, degree_keeps_v6, lists_src, lists_dst]
  rfl

/-- The first stretch writes none of the other arguments. -/
theorem edges_keeps_arg0 (V : Valuation τ sig (Elt Ideal)) :
    after opsEdges V (Proc.devRef .tc main_arg0) = V (Proc.devRef .tc main_arg0) := by
  rw [opsEdges, after_append, after_append, after_append]; unfold opsNorms opsWhere opsDegree opsLists; after_results_simp
theorem edges_keeps_arg2 (V : Valuation τ sig (Elt Ideal)) :
    after opsEdges V (Proc.devRef .tc main_arg2) = V (Proc.devRef .tc main_arg2) := by
  rw [opsEdges, after_append, after_append, after_append]; unfold opsNorms opsWhere opsDegree opsLists; after_results_simp
theorem edges_keeps_arg3 (V : Valuation τ sig (Elt Ideal)) :
    after opsEdges V (Proc.devRef .tc main_arg3) = V (Proc.devRef .tc main_arg3) := by
  rw [opsEdges, after_append, after_append, after_append]; unfold opsNorms opsWhere opsDegree opsLists; after_results_simp
theorem edges_keeps_arg4 (V : Valuation τ sig (Elt Ideal)) :
    after opsEdges V (Proc.devRef .tc main_arg4) = V (Proc.devRef .tc main_arg4) := by
  rw [opsEdges, after_append, after_append, after_append]; unfold opsNorms opsWhere opsDegree opsLists; after_results_simp
theorem edges_keeps_arg5 (V : Valuation τ sig (Elt Ideal)) :
    after opsEdges V (Proc.devRef .tc main_arg5) = V (Proc.devRef .tc main_arg5) := by
  rw [opsEdges, after_append, after_append, after_append]; unfold opsNorms opsWhere opsDegree opsLists; after_results_simp
theorem edges_keeps_arg6 (V : Valuation τ sig (Elt Ideal)) :
    after opsEdges V (Proc.devRef .tc main_arg6) = V (Proc.devRef .tc main_arg6) := by
  rw [opsEdges, after_append, after_append, after_append]; unfold opsNorms opsWhere opsDegree opsLists; after_results_simp
theorem edges_keeps_arg7 (V : Valuation τ sig (Elt Ideal)) :
    after opsEdges V (Proc.devRef .tc main_arg7) = V (Proc.devRef .tc main_arg7) := by
  rw [opsEdges, after_append, after_append, after_append]; unfold opsNorms opsWhere opsDegree opsLists; after_results_simp

/-! ## The second stretch: the first hidden layer -/

/-- Product with the weights, propagation along the entries found in the list buffers, and the bias. -/
theorem spread1_out (V : Valuation τ sig (Elt Ideal)) :
    after opsSpread1 V (Proc.devRef .tc main_v51) =
      addf (F := Ideal) (φ := .f32) (Cert.Gcn.aggRows128 (V (Proc.devRef .tc main_v5) : (⟨S1700000, .i32⟩ : BufTy).Contents (Elt Ideal)) (V (Proc.devRef .tc main_v6) : (⟨S1700000, .i32⟩ : BufTy).Contents (Elt Ideal)) (V (Proc.devRef .tc main_v34) : FVec Ideal S1700000 .f32) (Cert.Gcn.dot128 (V (Proc.devRef .tc main_arg0) : FVec Ideal S100000x128 .f32) (V (Proc.devRef .tc main_arg2) : FVec Ideal S128x128 .f32)))
        (broadcastInDim S100000x128 ![0, 1] bcast_S1x128_S100000x128_0_1 (broadcastInDim S1x128 ![1] bcast_S128_S1x128_1 (V (Proc.devRef .tc main_arg3) : FVec Ideal S128 .f32))) := by
  unfold opsSpread1; after_results_simp; rfl

/-- The maximum with zero. -/
theorem relu1_out (V : Valuation τ sig (Elt Ideal)) :
    after opsRelu1 V (Proc.devRef .tc main_v52) = maximumf (F := Ideal) (φ := .f32) (V (Proc.devRef .tc main_v51) : FVec Ideal S100000x128 .f32) (broadcastInDim S100000x128 ![] bcast_S_S100000x128 (constant (F := Ideal) S_ .f32 0x00000000#32)) := by
  unfold opsRelu1; after_results_simp; rfl

/-- The layer: the two runs composed are the specification's layer. -/
theorem layer1_out (V : Valuation τ sig (Elt Ideal)) :
    after opsLayer1 V (Proc.devRef .tc main_v52) =
      Cert.Gcn.biasRelu (Cert.Gcn.aggRows128 (V (Proc.devRef .tc main_v5) : (⟨S1700000, .i32⟩ : BufTy).Contents (Elt Ideal)) (V (Proc.devRef .tc main_v6) : (⟨S1700000, .i32⟩ : BufTy).Contents (Elt Ideal)) (V (Proc.devRef .tc main_v34) : FVec Ideal S1700000 .f32) (Cert.Gcn.dot128 (V (Proc.devRef .tc main_arg0) : FVec Ideal S100000x128 .f32) (V (Proc.devRef .tc main_arg2) : FVec Ideal S128x128 .f32))) (V (Proc.devRef .tc main_arg3) : FVec Ideal S128 .f32) := by
  rw [opsLayer1, after_append, relu1_out, spread1_out]
  rfl

/-- The layer writes neither the entry lists, nor the norms, nor the later layers' arguments. -/
theorem layer1_keeps_v5 (V : Valuation τ sig (Elt Ideal)) :
    after opsLayer1 V (Proc.devRef .tc main_v5) = V (Proc.devRef .tc main_v5) := by
  rw [opsLayer1, after_append]; unfold opsRelu1 opsSpread1; after_results_simp
theorem layer1_keeps_v6 (V : Valuation τ sig (Elt Ideal)) :
    after opsLayer1 V (Proc.devRef .tc main_v6) = V (Proc.devRef .tc main_v6) := by
  rw [opsLayer1, after_append]; unfold opsRelu1 opsSpread1; after_results_simp
theorem layer1_keeps_v34 (V : Valuation τ sig (Elt Ideal)) :
    after opsLayer1 V (Proc.devRef .tc main_v34) = V (Proc.devRef .tc main_v34) := by
  rw [opsLayer1, after_append]; unfold opsRelu1 opsSpread1; after_results_simp
theorem layer1_keeps_arg4 (V : Valuation τ sig (Elt Ideal)) :
    after opsLayer1 V (Proc.devRef .tc main_arg4) = V (Proc.devRef .tc main_arg4) := by
  rw [opsLayer1, after_append]; unfold opsRelu1 opsSpread1; after_results_simp
theorem layer1_keeps_arg5 (V : Valuation τ sig (Elt Ideal)) :
    after opsLayer1 V (Proc.devRef .tc main_arg5) = V (Proc.devRef .tc main_arg5) := by
  rw [opsLayer1, after_append]; unfold opsRelu1 opsSpread1; after_results_simp
theorem layer1_keeps_arg6 (V : Valuation τ sig (Elt Ideal)) :
    after opsLayer1 V (Proc.devRef .tc main_arg6) = V (Proc.devRef .tc main_arg6) := by
  rw [opsLayer1, after_append]; unfold opsRelu1 opsSpread1; after_results_simp
theorem layer1_keeps_arg7 (V : Valuation τ sig (Elt Ideal)) :
    after opsLayer1 V (Proc.devRef .tc main_arg7) = V (Proc.devRef .tc main_arg7) := by
  rw [opsLayer1, after_append]; unfold opsRelu1 opsSpread1; after_results_simp

/-! ## The third stretch: the second hidden layer -/

/-- Product with the weights, propagation along the entries found in the list buffers, and the bias. -/
theorem spread2_out (V : Valuation τ sig (Elt Ideal)) :
    after opsSpread2 V (Proc.devRef .tc main_v69) =
      addf (F := Ideal) (φ := .f32) (Cert.Gcn.aggRows128 (V (Proc.devRef .tc main_v5) : (⟨S1700000, .i32⟩ : BufTy).Contents (Elt Ideal)) (V (Proc.devRef .tc main_v6) : (⟨S1700000, .i32⟩ : BufTy).Contents (Elt Ideal)) (V (Proc.devRef .tc main_v34) : FVec Ideal S1700000 .f32) (Cert.Gcn.dot128 (V (Proc.devRef .tc main_v52) : FVec Ideal S100000x128 .f32) (V (Proc.devRef .tc main_arg4) : FVec Ideal S128x128 .f32)))
        (broadcastInDim S100000x128 ![0, 1] bcast_S1x128_S100000x128_0_1 (broadcastInDim S1x128 ![1] bcast_S128_S1x128_1 (V (Proc.devRef .tc main_arg5) : FVec Ideal S128 .f32))) := by
  unfold opsSpread2; after_results_simp; rfl

/-- The maximum with zero. -/
theorem relu2_out (V : Valuation τ sig (Elt Ideal)) :
    after opsRelu2 V (Proc.devRef .tc main_v70) = maximumf (F := Ideal) (φ := .f32) (V (Proc.devRef .tc main_v69) : FVec Ideal S100000x128 .f32) (broadcastInDim S100000x128 ![] bcast_S_S100000x128 (constant (F := Ideal) S_ .f32 0x00000000#32)) := by
  unfold opsRelu2; after_results_simp; rfl

/-- The layer: the two runs composed are the specification's layer. -/
theorem layer2_out (V : Valuation τ sig (Elt Ideal)) :
    after opsLayer2 V (Proc.devRef .tc main_v70) =
      Cert.Gcn.biasRelu (Cert.Gcn.aggRows128 (V (Proc.devRef .tc main_v5) : (⟨S1700000, .i32⟩ : BufTy).Contents (Elt Ideal)) (V (Proc.devRef .tc main_v6) : (⟨S1700000, .i32⟩ : BufTy).Contents (Elt Ideal)) (V (Proc.devRef .tc main_v34) : FVec Ideal S1700000 .f32) (Cert.Gcn.dot128 (V (Proc.devRef .tc main_v52) : FVec Ideal S100000x128 .f32) (V (Proc.devRef .tc main_arg4) : FVec Ideal S128x128 .f32))) (V (Proc.devRef .tc main_arg5) : FVec Ideal S128 .f32) := by
  rw [opsLayer2, after_append, relu2_out, spread2_out]
  rfl

/-- The layer writes neither the entry lists, nor the norms, nor the last layer's arguments. -/
theorem layer2_keeps_v5 (V : Valuation τ sig (Elt Ideal)) :
    after opsLayer2 V (Proc.devRef .tc main_v5) = V (Proc.devRef .tc main_v5) := by
  rw [opsLayer2, after_append]; unfold opsRelu2 opsSpread2; after_results_simp
theorem layer2_keeps_v6 (V : Valuation τ sig (Elt Ideal)) :
    after opsLayer2 V (Proc.devRef .tc main_v6) = V (Proc.devRef .tc main_v6) := by
  rw [opsLayer2, after_append]; unfold opsRelu2 opsSpread2; after_results_simp
theorem layer2_keeps_v34 (V : Valuation τ sig (Elt Ideal)) :
    after opsLayer2 V (Proc.devRef .tc main_v34) = V (Proc.devRef .tc main_v34) := by
  rw [opsLayer2, after_append]; unfold opsRelu2 opsSpread2; after_results_simp
theorem layer2_keeps_arg6 (V : Valuation τ sig (Elt Ideal)) :
    after opsLayer2 V (Proc.devRef .tc main_arg6) = V (Proc.devRef .tc main_arg6) := by
  rw [opsLayer2, after_append]; unfold opsRelu2 opsSpread2; after_results_simp
theorem layer2_keeps_arg7 (V : Valuation τ sig (Elt Ideal)) :
    after opsLayer2 V (Proc.devRef .tc main_arg7) = V (Proc.devRef .tc main_arg7) := by
  rw [opsLayer2, after_append]; unfold opsRelu2 opsSpread2; after_results_simp

/-! ## The fourth stretch: the last layer and the logarithm of the softmax -/

/-- Product with the 128 × 40 weights, propagation, and the bias. -/
theorem spread3_out (V : Valuation τ sig (Elt Ideal)) :
    after opsSpread3 V (Proc.devRef .tc main_v87) =
      Cert.Gcn.addBias40 (Cert.Gcn.aggRows40 (V (Proc.devRef .tc main_v5) : (⟨S1700000, .i32⟩ : BufTy).Contents (Elt Ideal)) (V (Proc.devRef .tc main_v6) : (⟨S1700000, .i32⟩ : BufTy).Contents (Elt Ideal)) (V (Proc.devRef .tc main_v34) : FVec Ideal S1700000 .f32) (Cert.Gcn.dot40 (V (Proc.devRef .tc main_v70) : FVec Ideal S100000x128 .f32) (V (Proc.devRef .tc main_arg6) : FVec Ideal S128x40 .f32))) (V (Proc.devRef .tc main_arg7) : FVec Ideal S40 .f32) := by
  unfold opsSpread3; after_results_simp; rfl

/-- Contents carried to a buffer's own type, or back from it, are the contents themselves (the types are the same). -/
theorem at_v87 (x : FVec Ideal S100000x40 .f32) :
    (TRef.of (T := ⟨S100000x40, .f32⟩) main_v87).ofBuf (Val := Elt Ideal) x = x := rfl
theorem at_call3_v0 (x : FVec Ideal S100000 .f32) :
    (TRef.of (T := ⟨S100000, .f32⟩) main_call3_v0).toBuf (Val := Elt Ideal) x = x := rfl
theorem at_call3_cst (x : FVec Ideal S_ .f32) :
    (TRef.of (T := ⟨S_, .f32⟩) main_call3_cst).ofBuf (Val := Elt Ideal) ((TRef.of (T := ⟨S_, .f32⟩) main_call3_cst).toBuf x) = x := rfl

/-- Each row's maximum, from minus infinity. -/
theorem rowReduce_out (V : Valuation τ sig (Elt Ideal)) :
    after opsRowReduce V (Proc.devRef .tc main_call3_v0) =
      Host.reduce (FloatOps.maximumf (F := Ideal)) (V (Proc.devRef .tc main_v87) : FVec Ideal S100000x40 .f32) (constant (F := Ideal) S_ .f32 0xFF800000#32) reducesTo_S100000x40_S100000_d1 h_S_ := by
  unfold opsRowReduce; after_results_simp
  rw [at_call3_v0, at_v87, at_call3_cst]

theorem rowReduce_keeps_v87 (V : Valuation τ sig (Elt Ideal)) :
    after opsRowReduce V (Proc.devRef .tc main_v87) = V (Proc.devRef .tc main_v87) := by
  unfold opsRowReduce; after_results_simp

/-- Once more the maximum with minus infinity. -/
theorem rowMax_out (V : Valuation τ sig (Elt Ideal)) :
    after opsRowMax V (Proc.devRef .tc main_call3_v2) =
      maximumf (F := Ideal) (φ := .f32) (broadcastInDim S100000 ![] bcast_S_S100000 (constant (F := Ideal) S_ .f32 0xFF800000#32)) (V (Proc.devRef .tc main_call3_v0) : FVec Ideal S100000 .f32) := by
  unfold opsRowMax; after_results_simp; rfl

theorem rowMax_keeps_v87 (V : Valuation τ sig (Elt Ideal)) :
    after opsRowMax V (Proc.devRef .tc main_v87) = V (Proc.devRef .tc main_v87) := by
  unfold opsRowMax; after_results_simp

/-- Each row minus the maximum found for it. -/
theorem shift_out (V : Valuation τ sig (Elt Ideal)) :
    after opsShift V (Proc.devRef .tc main_call3_v5) =
      subf (F := Ideal) (φ := .f32) (V (Proc.devRef .tc main_v87) : FVec Ideal S100000x40 .f32) (Cert.Gcn.alongRows (broadcastInDim S100000x1 ![0] bcast_S100000_S100000x1_0 (V (Proc.devRef .tc main_call3_v2) : FVec Ideal S100000 .f32))) := by
  unfold opsShift; after_results_simp; rfl

/-- The sum of the exponentials along each row. -/
theorem expSum_out (V : Valuation τ sig (Elt Ideal)) :
    after opsExpSum V (Proc.devRef .tc main_call3_v7) =
      Host.reduceAdd (F := Ideal) (Host.exp (F := Ideal) (V (Proc.devRef .tc main_call3_v5) : FVec Ideal S100000x40 .f32)) (constant (F := Ideal) S_ .f32 0x00000000#32) reducesTo_S100000x40_S100000_d1 h_S_ := by
  unfold opsExpSum; after_results_simp; rfl

theorem expSum_keeps_call3_v5 (V : Valuation τ sig (Elt Ideal)) :
    after opsExpSum V (Proc.devRef .tc main_call3_v5) = V (Proc.devRef .tc main_call3_v5) := by
  unfold opsExpSum; after_results_simp

/-- The row minus the logarithm of the sum found for it. -/
theorem logDiff_out (V : Valuation τ sig (Elt Ideal)) :
    after opsLogDiff V (Proc.devRef .tc main_v88) =
      subf (F := Ideal) (φ := .f32) (V (Proc.devRef .tc main_call3_v5) : FVec Ideal S100000x40 .f32)
        (Cert.Gcn.alongRows (Host.log (F := Ideal) (broadcastInDim S100000x1 ![0] bcast_S100000_S100000x1_0 (V (Proc.devRef .tc main_call3_v7) : FVec Ideal S100000 .f32)))) := by
  unfold opsLogDiff; after_results_simp; rfl

/-- The four steps composed are the specification's logarithm of the softmax. -/
theorem logSoftmax_out (V : Valuation τ sig (Elt Ideal)) :
    after opsLogSoftmax V (Proc.devRef .tc main_v88) = Cert.Gcn.logSoftmax (V (Proc.devRef .tc main_v87) : FVec Ideal S100000x40 .f32) := by
  rw [opsLogSoftmax, after_append, after_append, after_append, after_append, logDiff_out, expSum_out, expSum_keeps_call3_v5,
    shift_out, rowMax_out, rowReduce_out, rowMax_keeps_v87, rowReduce_keeps_v87]
  rfl

/-- The stretch: the two runs composed. -/
theorem layer3_out (V : Valuation τ sig (Elt Ideal)) :
    after opsLayer3 V (Proc.devRef .tc main_v88) =
      Cert.Gcn.logSoftmax (Cert.Gcn.addBias40 (Cert.Gcn.aggRows40 (V (Proc.devRef .tc main_v5) : (⟨S1700000, .i32⟩ : BufTy).Contents (Elt Ideal)) (V (Proc.devRef .tc main_v6) : (⟨S1700000, .i32⟩ : BufTy).Contents (Elt Ideal)) (V (Proc.devRef .tc main_v34) : FVec Ideal S1700000 .f32) (Cert.Gcn.dot40 (V (Proc.devRef .tc main_v70) : FVec Ideal S100000x128 .f32) (V (Proc.devRef .tc main_arg6) : FVec Ideal S128x40 .f32))) (V (Proc.devRef .tc main_arg7) : FVec Ideal S40 .f32)) := by
  rw [opsLayer3, after_append, logSoftmax_out, spread3_out]

/-! ## The whole program -/

/-- From any contents, the program leaves the network of the specification in its result buffer: the four stretches
    composed, the entry lists and the norms carried unchanged through the layers. -/
theorem value (V : Valuation τ sig (Elt Ideal)) :
    after (ops (F := Ideal)) V (Proc.devRef .tc main_v88) =
      Cert.Gcn.network (V (Proc.devRef .tc main_arg0) : FVec Ideal S100000x128 .f32)
        (V (Proc.devRef .tc main_arg1) : (⟨S2x1600000, .i32⟩ : BufTy).Contents (Elt Ideal))
        (V (Proc.devRef .tc main_arg2) : FVec Ideal S128x128 .f32)
        (V (Proc.devRef .tc main_arg3) : FVec Ideal S128 .f32)
        (V (Proc.devRef .tc main_arg4) : FVec Ideal S128x128 .f32)
        (V (Proc.devRef .tc main_arg5) : FVec Ideal S128 .f32)
        (V (Proc.devRef .tc main_arg6) : FVec Ideal S128x40 .f32)
        (V (Proc.devRef .tc main_arg7) : FVec Ideal S40 .f32) := by
  rw [ops_split, after_append, after_append, after_append, layer3_out, layer2_out, layer1_out,
    layer2_keeps_v5, layer2_keeps_v6, layer2_keeps_v34, layer2_keeps_arg6, layer2_keeps_arg7,
    layer1_keeps_v5, layer1_keeps_v6, layer1_keeps_v34, layer1_keeps_arg4, layer1_keeps_arg5, layer1_keeps_arg6, layer1_keeps_arg7,
    edges_src, edges_dst, edges_nrm,
    edges_keeps_arg0, edges_keeps_arg2, edges_keeps_arg3, edges_keeps_arg4, edges_keeps_arg5, edges_keeps_arg6, edges_keeps_arg7]
  rfl

/-- No operation of the program writes an argument. -/
theorem kept_arg0 (V : Valuation τ sig (Elt Ideal)) :
    after (ops (F := Ideal)) V (Proc.devRef .tc main_arg0) = V (Proc.devRef .tc main_arg0) := by
  after_results_simp
theorem kept_arg1 (V : Valuation τ sig (Elt Ideal)) :
    after (ops (F := Ideal)) V (Proc.devRef .tc main_arg1) = V (Proc.devRef .tc main_arg1) := by
  after_results_simp
theorem kept_arg2 (V : Valuation τ sig (Elt Ideal)) :
    after (ops (F := Ideal)) V (Proc.devRef .tc main_arg2) = V (Proc.devRef .tc main_arg2) := by
  after_results_simp
theorem kept_arg3 (V : Valuation τ sig (Elt Ideal)) :
    after (ops (F := Ideal)) V (Proc.devRef .tc main_arg3) = V (Proc.devRef .tc main_arg3) := by
  after_results_simp
theorem kept_arg4 (V : Valuation τ sig (Elt Ideal)) :
    after (ops (F := Ideal)) V (Proc.devRef .tc main_arg4) = V (Proc.devRef .tc main_arg4) := by
  after_results_simp
theorem kept_arg5 (V : Valuation τ sig (Elt Ideal)) :
    after (ops (F := Ideal)) V (Proc.devRef .tc main_arg5) = V (Proc.devRef .tc main_arg5) := by
  after_results_simp
theorem kept_arg6 (V : Valuation τ sig (Elt Ideal)) :
    after (ops (F := Ideal)) V (Proc.devRef .tc main_arg6) = V (Proc.devRef .tc main_arg6) := by
  after_results_simp
theorem kept_arg7 (V : Valuation τ sig (Elt Ideal)) :
    after (ops (F := Ideal)) V (Proc.devRef .tc main_arg7) = V (Proc.devRef .tc main_arg7) := by
  after_results_simp

/-- On every device, from any memory with zero counters: every weakly fair execution of the reference terminates with
    its result the network of the specification applied to the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88) =
          Cert.Gcn.network (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v88).trans (value (launchContents m c)),
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c))⟩)
    (run_seq scopedRefs_eq scopedSems_eq defs main (fun _ => ops) main_eq (fun _ => ops_sub) m ρ)

end Cert.ReferenceIdeal.RefValue

end
-- ==== Proof.lean ====
/-
  A three-layer graph convolution network over 100000 nodes, computed by a program of six tiled regions among whole-array
  operations, against the same network written with whole-array operations only.

  Both programs do the same edge bookkeeping with the same operations: the source and target lists with a self loop per
  node appended, the degrees, their inverse square roots where positive, the per-entry norms, and in each layer the
  gather of source rows, their scaling and the scatter-add into target rows. They differ in three places per layer, and
  at the ideal values each is the same function of the same arrays:
    - the matrix product: 20 tiles of 5000 rows, both factors rounded to bf16 (the identity on extended reals) and multiplied
      into a zero accumulator, against one whole product — entry (r, q) is the sum over k of h (r, k) · W (k, q) either way;
    - the bias and the maximum with zero: per tile, with the bias a row broadcast down the tile, against the bias vector
      broadcast to one row and then down all rows;
    - the logarithm of the softmax along each row: per tile z − max z − log (sum (exp (z − max z))), against the same with
      the row maximum taken once more with minus infinity (max ⊥ x = x) and the row sum started from the zero word.
  No law that needs finiteness is used — no distributivity, no cancellation, no reordering of a sum — only that each array
  operation, read at an index, is the stated sum, maximum or entry, and the two identities max ⊥ x = x and 0 + x = x; so the
  precondition is never opened.

  The frames of the two kernel programs are their generated frame certificates; the reference's frame is its run with the
  result dropped; the idealization rewrote no operation, so nothing is to be preserved.
-/
import proofs.«143151_j62251255988834_1_alg».proof.Defs
import proofs.«143151_j62251255988834_1_alg».proof.Proof.Gen.Kernel
import proofs.«143151_j62251255988834_1_alg».proof.Proof.Gen.Kernel.Skeleton
import proofs.«143151_j62251255988834_1_alg».proof.Proof.Gen.Kernel.Launch
import proofs.«143151_j62251255988834_1_alg».proof.Proof.Gen.Kernel.Points
import proofs.«143151_j62251255988834_1_alg».proof.Proof.Gen.Kernel.Frame
import proofs.«143151_j62251255988834_1_alg».proof.Proof.Gen.KernelIdeal
import proofs.«143151_j62251255988834_1_alg».proof.Proof.Gen.KernelIdeal.Skeleton
import proofs.«143151_j62251255988834_1_alg».proof.Proof.Gen.KernelIdeal.Launch
import proofs.«143151_j62251255988834_1_alg».proof.Proof.Gen.KernelIdeal.Points
import proofs.«143151_j62251255988834_1_alg».proof.Proof.Gen.KernelIdeal.Frame
import proofs.«143151_j62251255988834_1_alg».proof.Proof.Gen.ReferenceIdeal
import proofs.«143151_j62251255988834_1_alg».proof.Proof.Gen.Pre_finite_inputs
import proofs.«143151_j62251255988834_1_alg».proof.Proof.KernelRun
import proofs.«143151_j62251255988834_1_alg».proof.Proof.KernelChain
import proofs.«143151_j62251255988834_1_alg».proof.Proof.RefValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run, the result dropped. -/
theorem frame_reference : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on the arguments both programs end with the network of those arguments in their result array. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.Chain.result m ρ c), (h c).2⟩)
      (Cert.KernelIdeal.ValueRun.run_named m ρ)
  · refine (θ_run Cert.ReferenceIdeal.defs _ _).mono (fun r h c => ⟨(h c).1.trans ?_, (h c).2⟩)
      (Cert.ReferenceIdeal.RefValue.run m' ρ')
    obtain ⟨h0, h1, h2, h3, h4, h5, h6, h7⟩ := hagree c
    rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
